-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000000x3 : Shape := ⟨2, ![5000000, 3]⟩
abbrev S5000000x4 : Shape := ⟨2, ![5000000, 4]⟩
abbrev S_ : Shape := ⟨0, ![]⟩
abbrev S5000000 : Shape := ⟨1, ![5000000]⟩

class Facts : Prop where
  bcast_S_S5000000x3 : S_.BroadcastsInDim S5000000x3 (![] : Fin 0 → Fin S5000000x3.rank)
  reducesTo_S5000000x3_S_d0_1 : S5000000x3.ReducesTo [0, 1] S_
  h_S_ : 0 < S_.numel
  bcast_S_S5000000x4 : S_.BroadcastsInDim S5000000x4 (![] : Fin 0 → Fin S5000000x4.rank)
  reducesTo_S5000000x4_S_d0_1 : S5000000x4.ReducesTo [0, 1] S_
  reducesTo_S5000000x4_S5000000_d1 : S5000000x4.ReducesTo [1] S5000000
  bcast_S_S5000000 : S_.BroadcastsInDim S5000000 (![] : Fin 0 → Fin S5000000.rank)
  reducesTo_S5000000_S_d0 : S5000000.ReducesTo [0] S_

variable [Facts]

def fn {F : FTy → Type} [FloatOps F] (main_arg0 : FVec F S5000000x3 .f32) (main_arg1 : FVec F S5000000x4 .f32) : IVec S_ 1 :=
  let main_v0 : FVec F S5000000x3 .f32 := Host.absf main_arg0
  let main_cst : FVec F S_ .f32 := constant S_ .f32 0x7F800000#32
  let main_v1 : FVec F S5000000x3 .f32 := broadcastInDim S5000000x3 ![] bcast_S_S5000000x3 main_cst
  let main_v2 : IVec S5000000x3 1 := cmpf .olt main_v0 main_v1
  let main_c : IVec S_ 1 := constantI S_ 1 1#1
  let main_v3 : IVec S_ 1 := (fun x v => Host.reduce IntOp.andi x v reducesTo_S5000000x3_S_d0_1 h_S_) main_v2 main_c
  let main_v4 : FVec F S5000000x4 .f32 := Host.absf main_arg1
  let main_cst_0 : FVec F S_ .f32 := constant S_ .f32 0x7F800000#32
  let main_v5 : FVec F S5000000x4 .f32 := broadcastInDim S5000000x4 ![] bcast_S_S5000000x4 main_cst_0
  let main_v6 : IVec S5000000x4 1 := cmpf .olt main_v4 main_v5
  let main_c_1 : IVec S_ 1 := constantI S_ 1 1#1
  let main_v7 : IVec S_ 1 := (fun x v => Host.reduce IntOp.andi x v reducesTo_S5000000x4_S_d0_1 h_S_) main_v6 main_c_1
  let main_v8 : IVec S_ 1 := andi main_v3 main_v7
  let main_v9 : FVec F S5000000x4 .f32 := mulf main_arg1 main_arg1
  let main_cst_2 : FVec F S_ .f32 := constant S_ .f32 0x00000000#32
  let main_v10 : FVec F S5000000 .f32 := (fun x v => Host.reduceAdd x v reducesTo_S5000000x4_S5000000_d1 h_S_) main_v9 main_cst_2
  let main_cst_3 : FVec F S_ .f32 := constant S_ .f32 0x00000000#32
  let main_v11 : FVec F S5000000 .f32 := broadcastInDim S5000000 ![] bcast_S_S5000000 main_cst_3
  let main_v12 : IVec S5000000 1 := cmpf .ogt main_v10 main_v11
  let main_c_4 : IVec S_ 1 := constantI S_ 1 1#1
  let main_v13 : IVec S_ 1 := (fun x v => Host.reduce IntOp.andi x v reducesTo_S5000000_S_d0 h_S_) main_v12 main_c_4
  let main_v14 : IVec S_ 1 := andi main_v8 main_v13
  main_v14
-- ==== Kernel.lean ====
abbrev S5000000x3 : Shape := ⟨2, ![5000000, 3]⟩
abbrev S5000000x4 : Shape := ⟨2, ![5000000, 4]⟩
abbrev S5000000x9 : Shape := ⟨2, ![5000000, 9]⟩
abbrev S2048x3 : Shape := ⟨2, ![2048, 3]⟩
abbrev S2048x4 : Shape := ⟨2, ![2048, 4]⟩
abbrev S2048x9 : Shape := ⟨2, ![2048, 9]⟩
abbrev S2048 : Shape := ⟨1, ![2048]⟩
abbrev S2048x1 : Shape := ⟨2, ![2048, 1]⟩
abbrev S5000000x3x3 : Shape := ⟨3, ![5000000, 3, 3]⟩

abbrev nBuf : Space → Nat
  | .hbm => 4
  | .vmem => 6
  | .smem => 0
  | _ => 0

abbrev bufTy : (tb : Table) → Fin (tcTables nBuf tb) → BufTy
  | .hbm, ⟨0, _⟩ => ⟨S5000000x3, .f32⟩
  | .hbm, ⟨1, _⟩ => ⟨S5000000x4, .f32⟩
  | .hbm, ⟨2, _⟩ => ⟨S5000000x9, .f32⟩
  | .hbm, ⟨3, _⟩ => ⟨S5000000x3x3, .f32⟩
  | .local _ .vmem, ⟨0, _⟩ => ⟨S2048x3, .f32⟩
  | .local _ .vmem, ⟨1, _⟩ => ⟨S2048x3, .f32⟩
  | .local _ .vmem, ⟨2, _⟩ => ⟨S2048x4, .f32⟩
  | .local _ .vmem, ⟨3, _⟩ => ⟨S2048x4, .f32⟩
  | .local _ .vmem, ⟨4, _⟩ => ⟨S2048x9, .f32⟩
  | .local _ .vmem, ⟨5, _⟩ => ⟨S2048x9, .f32⟩
  | _, _ => ⟨S5000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2442], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2048x3_S2048x3_0_0 : ∀ a, (![0, 0] : Fin 2 → Nat) a + S2048x3.size a ≤ S2048x3.size a
  h_S2048x3 : 0 < S2048x3.numel
  inb_S2048x4_S2048x4_0_0 : ∀ a, (![0, 0] : Fin 2 → Nat) a + S2048x4.size a ≤ S2048x4.size a
  h_S2048x4 : 0 < S2048x4.numel
  reduces_S2048x4_S2048 : S2048x4.Reduces [1] S2048
  shapeCasts_S2048_S2048x1 : S2048.ShapeCasts S2048x1
  broadcasts_S2048x1_S2048x4 : S2048x1.Broadcasts S2048x4
  slices_S2048x4_o0_0_S2048x1 : S2048x4.Slices ![0, 0] S2048x1
  slices_S2048x4_o0_1_S2048x1 : S2048x4.Slices ![0, 1] S2048x1
  slices_S2048x4_o0_2_S2048x1 : S2048x4.Slices ![0, 2] S2048x1
  slices_S2048x4_o0_3_S2048x1 : S2048x4.Slices ![0, 3] S2048x1
  slices_S2048x3_o0_0_S2048x1 : S2048x3.Slices ![0, 0] S2048x1
  slices_S2048x3_o0_1_S2048x1 : S2048x3.Slices ![0, 1] S2048x1
  slices_S2048x3_o0_2_S2048x1 : S2048x3.Slices ![0, 2] S2048x1
  concatenates_S2048x1_S2048x1_S2048x1_S2048x1_S2048x1_S2048x1_S2048x1_S2048x1_S2048x1_S2048x9_d1 : Shape.Concatenates [S2048x1, S2048x1, S2048x1, S2048x1, S2048x1, S2048x1, S2048x1, S2048x1, S2048x1] S2048x9 1
  inb_S2048x9_S2048x9_0_0 : ∀ a, (![0, 0] : Fin 2 → Nat) a + S2048x9.size a ≤ S2048x9.size a
  h_S2048x9 : 0 < S2048x9.numel
  shapeCasts_S5000000x9_S5000000x3x3 : S5000000x9.ShapeCasts S5000000x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2048x3.size a < S5000000x3.size a
  hwx0_0 : ∀ i : grid0.Coords, EltTy.bits .f32 = 32 ∨ (Rect.unit (s := S5000000x3) (fun a => cc0_transform_0 i a * S2048x3.size a) (fun a => (Pipeline.Clip.of (cc0_transform_0 i a) (S2048x3.size a) (S5000000x3.size a)).extent (S2048x3.size a)) fun a => Pipeline.Clip.inb (Pipeline.Clip.ok_of (hstart0_0 i a))).WholeWords (EltTy.packing .f32)
  hwxs0_0 : ∀ i : grid0.Coords, EltTy.bits .f32 = 32 ∨ (Rect.unit (s := S2048x3) (fun _ => 0) (fun a => (Pipeline.Clip.of (cc0_transform_0 i a) (S2048x3.size a) (S5000000x3.size a)).extent (S2048x3.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x4.size a < S5000000x4.size a
  hwx0_1 : ∀ i : grid0.Coords, EltTy.bits .f32 = 32 ∨ (Rect.unit (s := S5000000x4) (fun a => cc0_transform_1 i a * S2048x4.size a) (fun a => (Pipeline.Clip.of (cc0_transform_1 i a) (S2048x4.size a) (S5000000x4.size a)).extent (S2048x4.size a)) fun a => Pipeline.Clip.inb (Pipeline.Clip.ok_of (hstart0_1 i a))).WholeWords (EltTy.packing .f32)
  hwxs0_1 : ∀ i : grid0.Coords, EltTy.bits .f32 = 32 ∨ (Rect.unit (s := S2048x4) (fun _ => 0) (fun a => (Pipeline.Clip.of (cc0_transform_1 i a) (S2048x4.size a) (S5000000x4.size a)).extent (S2048x4.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2048x9.size a < S5000000x9.size a
  hwx0_2 : ∀ i : grid0.Coords, EltTy.bits .f32 = 32 ∨ (Rect.unit (s := S5000000x9) (fun a => cc0_transform_2 i a * S2048x9.size a) (fun a => (Pipeline.Clip.of (cc0_transform_2 i a) (S2048x9.size a) (S5000000x9.size a)).extent (S2048x9.size a)) fun a => Pipeline.Clip.inb (Pipeline.Clip.ok_of (hstart0_2 i a))).WholeWords (EltTy.packing .f32)
  hwxs0_2 : ∀ i : grid0.Coords, EltTy.bits .f32 = 32 ∨ (Rect.unit (s := S2048x9) (fun _ => 0) (fun a => (Pipeline.Clip.of (cc0_transform_2 i a) (S2048x9.size a) (S5000000x9.size a)).extent (S2048x9.size a)) fun a => (Nat.zero_add _).trans_le (Pipeline.Clip.extent_le (Pipeline.Clip.ok_of (hstart0_2 i a)))).WholeWords (EltTy.packing .f32)

variable [Facts₀]

abbrev win0_0 : Pipeline.Window sig grid0 :=
  Pipeline.Window.ofSpecClip (Memref.whole main_arg0) S2048x3.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S2048x4.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S2048x9.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S5000000x3 : Shape := ⟨2, ![5000000, 3]⟩
abbrev S5000000x4 : Shape := ⟨2, ![5000000, 4]⟩
abbrev S_ : Shape := ⟨0, ![]⟩
abbrev S5000000 : Shape := ⟨1, ![5000000]⟩
abbrev S5000000x1 : Shape := ⟨2, ![5000000, 1]⟩
abbrev S5000000x1x3 : Shape := ⟨3, ![5000000, 1, 3]⟩
abbrev S5000000x3x3 : Shape := ⟨3, ![5000000, 3, 3]⟩
abbrev S3x3 : Shape := ⟨2, ![3, 3]⟩
abbrev S1x3x3 : Shape := ⟨3, ![1, 3, 3]⟩

abbrev nBuf : Space → Nat
  | .hbm => 122
  | .vmem => 0
  | .smem => 0
  | _ => 0

abbrev bufTy : (tb : Table) → Fin (tcTables nBuf tb) → BufTy
  | .hbm, ⟨0, _⟩ => ⟨S5000000x3, .f32⟩
  | .hbm, ⟨1, _⟩ => ⟨S5000000x4, .f32⟩
  | .hbm, ⟨2, _⟩ => ⟨S5000000x3, .f32⟩
  | .hbm, ⟨3, _⟩ => ⟨S_, .f32⟩
  | .hbm, ⟨4, _⟩ => ⟨S5000000x3, .f32⟩
  | .hbm, ⟨5, _⟩ => ⟨S5000000x3, .f32⟩
  | .hbm, ⟨6, _⟩ => ⟨S5000000x4, .f32⟩
  | .hbm, ⟨7, _⟩ => ⟨S_, .f32⟩
  | .hbm, ⟨8, _⟩ => ⟨S5000000, .f32⟩
  | .hbm, ⟨9, _⟩ => ⟨S5000000x1, .f32⟩
  | .hbm, ⟨10, _⟩ => ⟨S5000000x1, .f32⟩
  | .hbm, ⟨11, _⟩ => ⟨S5000000x4, .f32⟩
  | .hbm, ⟨12, _⟩ => ⟨S5000000x4, .f32⟩
  | .hbm, ⟨13, _⟩ => ⟨S5000000x1, .f32⟩
  | .hbm, ⟨14, _⟩ => ⟨S5000000, .f32⟩
  | .hbm, ⟨15, _⟩ => ⟨S5000000x1, .f32⟩
  | .hbm, ⟨16, _⟩ => ⟨S5000000, .f32⟩
  | .hbm, ⟨17, _⟩ => ⟨S5000000x1, .f32⟩
  | .hbm, ⟨18, _⟩ => ⟨S5000000, .f32⟩
  | .hbm, ⟨19, _⟩ => ⟨S5000000x1, .f32⟩
  | .hbm, ⟨20, _⟩ => ⟨S5000000, .f32⟩
  | .hbm, ⟨21, _⟩ => ⟨S5000000, .f32⟩
  | .hbm, ⟨22, _⟩ => ⟨S5000000, .f32⟩
  | .hbm, ⟨23, _⟩ => ⟨S5000000, .f32⟩
  | .hbm, ⟨24, _⟩ => ⟨S_, .f32⟩
  | .hbm, ⟨25, _⟩ => ⟨S5000000, .f32⟩
  | .hbm, ⟨26, _⟩ => ⟨S5000000, .f32⟩
  | .hbm, ⟨27, _⟩ => ⟨S_, .f32⟩
  | .hbm, ⟨28, _⟩ => ⟨S5000000, .f32⟩
  | .hbm, ⟨29, _⟩ => ⟨S5000000, .f32⟩
  | .hbm, ⟨30, _⟩ => ⟨S5000000, .f32⟩
  | .hbm, ⟨31, _⟩ => ⟨S5000000, .f32⟩
  | .hbm, ⟨32, _⟩ => ⟨S5000000, .f32⟩
  | .hbm, ⟨33, _⟩ => ⟨S_, .f32⟩
  | .hbm, ⟨34, _⟩ => ⟨S5000000, .f32⟩
  | .hbm, ⟨35, _⟩ => ⟨S5000000, .f32⟩
  | .hbm, ⟨36, _⟩ => ⟨S5000000, .f32⟩
  | .hbm, ⟨37, _⟩ => ⟨S5000000, .f32⟩
  | .hbm, ⟨38, _⟩ => ⟨S5000000, .f32⟩
  | .hbm, ⟨39, _⟩ => ⟨S_, .f32⟩
  | .hbm, ⟨40, _⟩ => ⟨S5000000, .f32⟩
  | .hbm, ⟨41, _⟩ => ⟨S5000000, .f32⟩
  | .hbm, ⟨42, _⟩ => ⟨S5000000x1, .f32⟩
  | .hbm, ⟨43, _⟩ => ⟨S5000000x1, .f32⟩
  | .hbm, ⟨44, _⟩ => ⟨S5000000x1, .f32⟩
  | .hbm, ⟨45, _⟩ => ⟨S5000000x3, .f32⟩
  | .hbm, ⟨46, _⟩ => ⟨S5000000, .f32⟩
  | .hbm, ⟨47, _⟩ => ⟨S5000000, .f32⟩
  | .hbm, ⟨48, _⟩ => ⟨S5000000, .f32⟩
  | .hbm, ⟨49, _⟩ => ⟨S_, .f32⟩
  | .hbm, ⟨50, _⟩ => ⟨S5000000, .f32⟩
  | .hbm, ⟨51, _⟩ => ⟨S5000000, .f32⟩
  | .hbm, ⟨52, _⟩ => ⟨S5000000, .f32⟩
  | .hbm, ⟨53, _⟩ => ⟨S5000000, .f32⟩
  | .hbm, ⟨54, _⟩ => ⟨S5000000, .f32⟩
  | .hbm, ⟨55, _⟩ => ⟨S_, .f32⟩
  | .hbm, ⟨56, _⟩ => ⟨S5000000, .f32⟩
  | .hbm, ⟨57, _⟩ => ⟨S5000000, .f32⟩
  | .hbm, ⟨58, _⟩ => ⟨S_, .f32⟩
  | .hbm, ⟨59, _⟩ => ⟨S5000000, .f32⟩
  | .hbm, ⟨60, _⟩ => ⟨S5000000, .f32⟩
  | .hbm, ⟨61, _⟩ => ⟨S5000000, .f32⟩
  | .hbm, ⟨62, _⟩ => ⟨S5000000, .f32⟩
  | .hbm, ⟨63, _⟩ => ⟨S5000000, .f32⟩
  | .hbm, ⟨64, _⟩ => ⟨S_, .f32⟩
  | .hbm, ⟨65, _⟩ => ⟨S5000000, .f32⟩
  | .hbm, ⟨66, _⟩ => ⟨S5000000, .f32⟩
  | .hbm, ⟨67, _⟩ => ⟨S5000000x1, .f32⟩
  | .hbm, ⟨68, _⟩ => ⟨S5000000x1, .f32⟩
  | .hbm, ⟨69, _⟩ => ⟨S5000000x1, .f32⟩
  | .hbm, ⟨70, _⟩ => ⟨S5000000x3, .f32⟩
  | .hbm, ⟨71, _⟩ => ⟨S5000000, .f32⟩
  | .hbm, ⟨72, _⟩ => ⟨S5000000, .f32⟩
  | .hbm, ⟨73, _⟩ => ⟨S5000000, .f32⟩
  | .hbm, ⟨74, _⟩ => ⟨S_, .f32⟩
  | .hbm, ⟨75, _⟩ => ⟨S5000000, .f32⟩
  | .hbm, ⟨76, _⟩ => ⟨S5000000, .f32⟩
  | .hbm, ⟨77, _⟩ => ⟨S5000000, .f32⟩
  | .hbm, ⟨78, _⟩ => ⟨S5000000, .f32⟩
  | .hbm, ⟨79, _⟩ => ⟨S5000000, .f32⟩
  | .hbm, ⟨80, _⟩ => ⟨S_, .f32⟩
  | .hbm, ⟨81, _⟩ => ⟨S5000000, .f32⟩
  | .hbm, ⟨82, _⟩ => ⟨S5000000, .f32⟩
  | .hbm, ⟨83, _⟩ => ⟨S5000000, .f32⟩
  | .hbm, ⟨84, _⟩ => ⟨S5000000, .f32⟩
  | .hbm, ⟨85, _⟩ => ⟨S5000000, .f32⟩
  | .hbm, ⟨86, _⟩ => ⟨S_, .f32⟩
  | .hbm, ⟨87, _⟩ => ⟨S5000000, .f32⟩
  | .hbm, ⟨88, _⟩ => ⟨S5000000, .f32⟩
  | .hbm, ⟨89, _⟩ => ⟨S_, .f32⟩
  | .hbm, ⟨90, _⟩ => ⟨S5000000, .f32⟩
  | .hbm, ⟨91, _⟩ => ⟨S5000000, .f32⟩
  | .hbm, ⟨92, _⟩ => ⟨S5000000x1, .f32⟩
  | .hbm, ⟨93, _⟩ => ⟨S5000000x1, .f32⟩
  | .hbm, ⟨94, _⟩ => ⟨S5000000x1, .f32⟩
  | .hbm, ⟨95, _⟩ => ⟨S5000000x3, .f32⟩
  | .hbm, ⟨96, _⟩ => ⟨S5000000x1x3, .f32⟩
  | .hbm, ⟨97, _⟩ => ⟨S5000000x1x3, .f32⟩
  | .hbm, ⟨98, _⟩ => ⟨S5000000x1x3, .f32⟩
  | .hbm, ⟨99, _⟩ => ⟨S5000000x3x3, .f32⟩
  | .hbm, ⟨100, _⟩ => ⟨S5000000x1x3, .f32⟩
  | .hbm, ⟨101, _⟩ => ⟨S5000000x3x3, .f32⟩
  | .hbm, ⟨102, _⟩ => ⟨S5000000x3x3, .f32⟩
  | .hbm, ⟨103, _⟩ => ⟨S5000000x3x3, .f32⟩
  | .hbm, ⟨104, _⟩ => ⟨S5000000x3x3, .f32⟩
  | .hbm, ⟨105, _⟩ => ⟨S5000000x3x3, .f32⟩
  | .hbm, ⟨106, _⟩ => ⟨S_, .f32⟩
  | .hbm, ⟨107, _⟩ => ⟨S5000000x3x3, .f32⟩
  | .hbm, ⟨108, _⟩ => ⟨S5000000x3x3, .f32⟩
  | .hbm, ⟨109, _⟩ => ⟨S3x3, .i32⟩
  | .hbm, ⟨110, _⟩ => ⟨S3x3, .i32⟩
  | .hbm, ⟨111, _⟩ => ⟨S_, .i32⟩
  | .hbm, ⟨112, _⟩ => ⟨S3x3, .i32⟩
  | .hbm, ⟨113, _⟩ => ⟨S3x3, .i32⟩
  | .hbm, ⟨114, _⟩ => ⟨S3x3, .i1⟩
  | .hbm, ⟨115, _⟩ => ⟨S3x3, .f32⟩
  | .hbm, ⟨116, _⟩ => ⟨S1x3x3, .f32⟩
  | .hbm, ⟨117, _⟩ => ⟨S_, .f32⟩
  | .hbm, ⟨118, _⟩ => ⟨S1x3x3, .f32⟩
  | .hbm, ⟨119, _⟩ => ⟨S1x3x3, .f32⟩
  | .hbm, ⟨120, _⟩ => ⟨S5000000x3x3, .f32⟩
  | .hbm, ⟨121, _⟩ => ⟨S5000000x3x3, .f32⟩
  | _, _ => ⟨S5000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_8 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_9 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_10 : Ref sig .tc := ⟨.hbm, 86, rfl⟩
abbrev main_v69 : Ref sig .tc := ⟨.hbm, 87, rfl⟩
abbrev main_v70 : Ref sig .tc := ⟨.hbm, 88, rfl⟩
abbrev main_cst_11 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_cst_12 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_c : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_cst_13 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩

abbrev nD : Nat := 1
abbrev τ : Topo := Topo.v7x

variable {F : FTy → Type} [FloatOps F]

class Facts₀ : Prop where
  bcast_S_S5000000x3 : S_.BroadcastsInDim S5000000x3 (![] : Fin 0 → Fin S5000000x3.rank)
  reducesTo_S5000000x4_S5000000_d1 : S5000000x4.ReducesTo [1] S5000000
  h_S_ : 0 < S_.numel
  bcast_S5000000_S5000000x1_0 : S5000000.BroadcastsInDim S5000000x1 (![0] : Fin 1 → Fin S5000000x1.rank)
  bcast_S5000000x1_S5000000x4_0_1 : S5000000x1.BroadcastsInDim S5000000x4 (![0, 1] : Fin 2 → Fin S5000000x4.rank)
  slices_S5000000x4_S5000000x1_0_0 : S5000000x4.Slices ![0, 0] S5000000x1
  shapeCasts_S5000000x1_S5000000 : S5000000x1.ShapeCasts S5000000
  slices_S5000000x4_S5000000x1_0_1 : S5000000x4.Slices ![0, 1] S5000000x1
  slices_S5000000x4_S5000000x1_0_2 : S5000000x4.Slices ![0, 2] S5000000x1
  slices_S5000000x4_S5000000x1_0_3 : S5000000x4.Slices ![0, 3] S5000000x1
  bcast_S_S5000000 : S_.BroadcastsInDim S5000000 (![] : Fin 0 → Fin S5000000.rank)
  concatenates_S5000000x1_S5000000x1_S5000000x1_S5000000x3_d1 : Shape.Concatenates [S5000000x1, S5000000x1, S5000000x1] S5000000x3 1
  bcast_S5000000x3_S5000000x1x3_0_2 : S5000000x3.BroadcastsInDim S5000000x1x3 (![0, 2] : Fin 2 → Fin S5000000x1x3.rank)
  concatenates_S5000000x1x3_S5000000x1x3_S5000000x1x3_S5000000x3x3_d1 : Shape.Concatenates [S5000000x1x3, S5000000x1x3, S5000000x1x3] S5000000x3x3 1
  bcast_S5000000x1x3_S5000000x3x3_0_1_2 : S5000000x1x3.BroadcastsInDim S5000000x3x3 (![0, 1, 2] : Fin 3 → Fin S5000000x3x3.rank)
  transposes_S5000000x3x3_S5000000x3x3_0_2_1 : S5000000x3x3.Transposes [0, 2, 1] S5000000x3x3
  bcast_S_S5000000x3x3 : S_.BroadcastsInDim S5000000x3x3 (![] : Fin 0 → Fin S5000000x3x3.rank)
  bcast_S_S3x3 : S_.BroadcastsInDim S3x3 (![] : Fin 0 → Fin S3x3.rank)
  bcast_S3x3_S1x3x3_1_2 : S3x3.BroadcastsInDim S1x3x3 (![1, 2] : Fin 2 → Fin S1x3x3.rank)
  bcast_S_S1x3x3 : S_.BroadcastsInDim S1x3x3 (![] : Fin 0 → Fin S1x3x3.rank)
  bcast_S1x3x3_S5000000x3x3_0_1_2 : S1x3x3.BroadcastsInDim S5000000x3x3 (![0, 1, 2] : Fin 3 → Fin S5000000x3x3.rank)
  dot_S5000000x3x3_S5000000x3x3_S5000000x3x3_2_2_1_1_0_0_wf : DotDims.WF S5000000x3x3 S5000000x3x3 S5000000x3x3 [2] [2] [1] [1] [0] [0]

variable [Facts₀]

def dot_S5000000x3x3_S5000000x3x3_S5000000x3x3_2_2_1_1_0_0 : DotDims S5000000x3x3 S5000000x3x3 S5000000x3x3 where
  lhsContracting := [2]
  rhsContracting := [2]
  lhsNonContracting := [1]
  rhsNonContracting := [1]
  lhsBatch := [0]
  rhsBatch := [0]
  wf := dot_S5000000x3x3_S5000000x3x3_S5000000x3x3_2_2_1_1_0_0_wf

class Facts : Prop extends Facts₀ where

variable [Facts]
-- ==== Proof.BodyValK.lean ====
/-
  The value the kernel body stores into the result's staging buffer, as ONE function of the two blocks it loads:
  the generated payloads composed as the body's three parts pass them on.
-/
import proofs.«160358_j32280974197216_2_alg».proof.Proof.Gen.Kernel.Skeleton

noncomputable section

namespace Cert.Kernel.Hand

open Idealize.ShloMosaic Cert.Kernel Cert.Kernel.Gen

variable {F : FTy → Type} [FloatOps F]

/-- The stored [2048, 9] block as a function of the loaded [2048, 3] block of log-scales `v0` and the loaded
    [2048, 4] block of quaternions `v1`. -/
def bodyVal (v0 : Vec F S2048x3 .f32) (v1 : Vec F S2048x4 .f32) : FVec F S2048x9 .f32 :=
  k0_pay1 (k0_pay24 v0 (k0_pay3 v1) (k0_pay4 v1) (k0_pay5 v1) (k0_pay6 v1))
    (k0_pay25 v0 (k0_pay3 v1) (k0_pay4 v1))
    (k0_pay26 v0 (k0_pay7 v1) (k0_pay8 v1) (k0_pay9 v1))
    (k0_pay27 v0 (k0_pay7 v1) (k0_pay8 v1) (k0_pay9 v1) (k0_pay10 v1) (k0_pay11 v1) (k0_pay12 v1))
    (k0_pay28 v0 (k0_pay3 v1) (k0_pay4 v1) (k0_pay5 v1) (k0_pay6 v1) (k0_pay7 v1) (k0_pay8 v1) (k0_pay9 v1))
    (k0_pay29 v0 (k0_pay10 v1) (k0_pay11 v1) (k0_pay12 v1))
    (k0_pay30 v0 (k0_pay3 v1) (k0_pay4 v1) (k0_pay5 v1) (k0_pay6 v1) (k0_pay10 v1) (k0_pay11 v1) (k0_pay12 v1))
    (k0_pay31 v0 (k0_pay3 v1) (k0_pay4 v1) (k0_pay5 v1) (k0_pay6 v1))

end Cert.Kernel.Hand

end
-- ==== Proof.BodyK.lean ====
/-
  The kernel body's triple. On whole staging buffers holding `x0` (a [2048, 3] block of log-scales), `x1` (a
  [2048, 4] block of quaternions) and anything in the result's buffer, the body loads the first two whole, computes,
  and stores the [2048, 9] block `bodyVal x0 x1` whole: the inputs' buffers are left as found.
-/
import proofs.«160358_j32280974197216_2_alg».proof.Proof.Gen.Kernel.Launch
import proofs.«160358_j32280974197216_2_alg».proof.Proof.Gen.Kernel.Skeleton
import proofs.«160358_j32280974197216_2_alg».proof.Proof.Gen.Kernel.Points
import proofs.«160358_j32280974197216_2_alg».proof.Proof.BodyValK
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's three accesses: each the whole buffer. -/
abbrev r0 : Rect S2048x3 := Rect.unit (s := S2048x3) ![0, 0] S2048x3.size inb_S2048x3_S2048x3_0_0
abbrev r1 : Rect S2048x4 := Rect.unit (s := S2048x4) ![0, 0] S2048x4.size inb_S2048x4_S2048x4_0_0
abbrev r2 : Rect S2048x9 := Rect.unit (s := S2048x9) ![0, 0] S2048x9.size inb_S2048x9_S2048x9_0_0

theorem zero_offsets : (![0, 0] : Fin 2 → Nat) = fun _ => 0 := funext fun a => by fin_cases a <;> rfl

/-- The one store covers the result's buffer. -/
theorem cover2 (p0 : Vec F S2048x9 .f32) (y : S2048x9.Idx) :
    ∃ pc ∈ ([⟨r2, p0⟩] : List (View.Piece (Elt F) S2048x9 .f32)), y ∈ pc.1.set :=
  ⟨_, List.mem_singleton_self _, View.mem_set_unit_zero zero_offsets inb_S2048x9_S2048x9_0_0 y⟩

set_option maxHeartbeats 4000000 in
/-- The body on whole staging memrefs: the inputs' at `x0`, `x1`, the result's at anything; it ends with the inputs'
    as they were and the result's at `bodyVal x0 x1`. -/
theorem sound_kernel (c : Dev nD) (E : Set ℕ) (i : grid0.Coords) (arg1 : Memref sig .tc .vmem S2048x3 .f32) (harg1 : arg1.IsWhole)
    (arg2 : Memref sig .tc .vmem S2048x4 .f32) (harg2 : arg2.IsWhole) (arg3 : Memref sig .tc .vmem S2048x9 .f32) (harg3 : arg3.IsWhole)
    (x0 : Vec F S2048x3 .f32) (x1 : Vec F S2048x4 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (bodyVal x0 x1)) -∗ K ⟨⟩))
      ⊢ wp frame (wpE (defs₀ (F := F)) Variants.none c none) E (cc0__gaussian_cov_kernel i arg1 harg1 arg2 harg2 arg3 harg3) K := by
  simp only [cc0__gaussian_cov_kernel_eq_skeleton]; unfold cc0__gaussian_cov_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  refine (View.read_writes_eq_canon _ _ _ (cover2 _)).trans ?_
  rw [View.canon_unit_zero zero_offsets]
  simp only [View.readAt_eq_ld, View.ld_unit_zero (S := S2048x3) zero_offsets, View.ld_unit_zero (S := S2048x4) zero_offsets]
  rfl

end Cert.Kernel.Hand

end
-- ==== Proof.FrameK.lean ====
/-
  The word-level kernel's run around its one region, and the frame: the two argument arrays end as launched.

  The grid has 2442 points; point `t` works on rows `2048 t … 2048 t + 2047` of the three arrays, and the last point's
  block overhangs the arrays' 5,000,000 rows, so its transfers are cut: a fetch fills only the buffer's leading rows
  (the rest holds words nothing names), and the write-back writes only those rows. The frame says nothing of the
  result array, so the result's window is FORGOTTEN: its staging buffer is handed to the body at arbitrary contents and
  taken back at arbitrary contents, and the proof data names contents only for the two inputs' buffers (after the
  body, as before it: their fetched blocks, filled out past the array's end). The inputs are never written back, so
  their arrays stay what the region found, and the one host line after the region (a reshape of the result into a
  fresh buffer) writes neither.
-/
import proofs.«160358_j32280974197216_2_alg».proof.Proof.Gen.Kernel.Frame
import proofs.«160358_j32280974197216_2_alg».proof.Proof.BodyK
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The two input blocks at point `t` as whole [2048, ·] buffers: the rows inside the array, filled out past the
    array's end with a fixed word nothing reads. -/
def in0 (c : Dev nD) (t : Fin cfg0.N) : S2048x3.Idx → Elt F .f32 :=
  win0_0.fill (grid0.coords t) (fun _ => Scalar.ofBits .f32 0#32) (iblk m c 0 t)
def in1 (c : Dev nD) (t : Fin cfg0.N) : S2048x4.Idx → Elt F .f32 :=
  win0_1.fill (grid0.coords t) (fun _ => Scalar.ofBits .f32 0#32) (iblk m c 1 t)

/-- The windows the proof says nothing of: the result's (window 2) only. -/
abbrev fgt : Fin cfg0.W → Bool :=
  fun | 0 => false | 1 => false | 2 => true | ⟨_ + 3, h⟩ => absurd h (Nat.not_lt.2 (Nat.le_add_left _ _))

/-- The proof data of the one pipeline on core `c`: the arrays as the region finds them; after the body at point `t`
    the inputs' buffers at their blocks (the result's entry is never read: its window is forgotten); the class's
    invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => in0 m c t
    | ⟨1, _⟩ => in1 m c t
    | ⟨2, _⟩ => fun _ => Scalar.ofBits .f32 0#32
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body finds in each input's buffer, just fetched: its block on the rows inside the array, `d` elsewhere. -/
theorem before0 (c : Dev nD) (t : Fin cfg0.N) (d) :
    (dats m 0 c).before 0 t d = win0_0.fill (grid0.coords t) d (iblk m c 0 t) := by
  unfold Dat.before; rw [if_pos (fetch0_0 t)]; rfl
theorem before1 (c : Dev nD) (t : Fin cfg0.N) (d) :
    (dats m 0 c).before 1 t d = win0_1.fill (grid0.coords t) d (iblk m c 1 t) := by
  unfold Dat.before; rw [if_pos (fetch0_1 t)]; rfl

/-! ## The body obligation, the result's window forgotten -/

/-- The library's body obligation from the body's triple at the point's staging buffers. The inputs' buffers arrive
    holding their blocks filled out with some `d` past the array's end and leave as they came; the result's arrives
    holding anything and leaves holding something, of which nothing is said. -/
theorem body_obligation (c : Dev nD) :
    BodyObligationLoose (dats m 0 c) (defs₀ (F := F)) Variants.none () Set.univ fgt := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before0 m c t d0, before1 m c t d1]
  iapply (sound_kernel (F := F) c Set.univ (grid0.coords t) _ _ _ _ _ _
    (win0_0.fill (grid0.coords t) d0 (iblk m c 0 t)) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  have h0 : win0_0.cut (grid0.coords t) (in0 m c t) = iblk m c 0 t := win0_0.cut_fill _ _ _
  have h1 : win0_1.cut (grid0.coords t) (in1 m c t) = iblk m c 1 t := win0_1.cut_fill _ _ _
  isplitl [H0]
  · iexists d0
    change _ ⊢ owns (c : Thread nD τ) (stage0_0 (cfg0.slots t 0)) fullShare (win0_0.fill (grid0.coords t) d0 (win0_0.cut (grid0.coords t) (in0 m c t)))
    rw [h0]; try iexact H0
  isplitl [H1]
  · iexists d1
    change _ ⊢ owns (c : Thread nD τ) (stage0_1 (cfg0.slots t 1)) fullShare (win0_1.fill (grid0.coords t) d1 (win0_1.cut (grid0.coords t) (in1 m c t)))
    rw [h1]; try iexact H1
  · iexists _; iexact H2

/-! ## The run -/

/-- The proof data read relationally, the result's window forgotten. -/
abbrev rdat (c : Dev nD) : RDat τ (Elt F) Unit ℕ (UR sig nD τ) ℕ cfg0 c := (dats m 0 c).toRForget fgt

/-- The one host line after the region writes only its own result buffer. -/
theorem sfx_T : ∀ ops ∈ ([hostOps1] : List (List (HloOp τ sig (Elt F)))), ∀ op ∈ ops, ∀ b : Ref sig .tc,
    Proc.devRef .tc b ∈ op.writes → b ∈ ({main_v1} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  exact Finset.mem_singleton.mpr (Proc.devRef_injective _ hb)

set_option backward.isDefEq.respectTransparency.types false in
/-- Every weakly fair execution of @main terminates, with every array of the pipeline at something the write-backs may
    leave (an input's: what the region found) and every other buffer the host line does not write at what the region
    found. -/
theorem run_main : θ_run defs (onTc (τ := τ) (main (F := F))) (s₀ m ρ)
    (RDat.FramePostR cfg0 (rdat m) {main_v1} (fun c b => V0 m c (Proc.devRef .tc b))) :=
  RDat.θ_run_frame_around_T cfgs (0 : Fin 1) launch0 defs₀ Variants.none (rdat := rdat m) (T := {main_v1}) m ρ main
    (hbody := fun c => (body_obligation m c).toRForget)
    (hshare := fun c => (rdat m c).share_full fun _ => rfl)
    (howed := fun _ _ => rfl) (V₀ := V0 m) (opss := [hostOps1]) (hsub := sfx_sub) (hfresh := sfx_fresh) (hkeep := sfx_keeps)
    (hT := sfx_T) (hmain := hmain m Variants.none) (hA := A_eq m) (hΦ := fun _ _ => rfl)

/-- The frame: the run ends with the two argument arrays as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(Eq.mp (congrFun ((rdat m c).ArrAt_in 0 rfl cfg0.N) _) ((h c).1 0)).trans ((A_eq m c 0).trans (V_main_arg0 m c)),
     (Eq.mp (congrFun ((rdat m c).ArrAt_in 1 rfl cfg0.N) _) ((h c).1 1)).trans ((A_eq m c 1).trans (V_main_arg1 m c))⟩)
    (run_main m ρ)

end Cert.Kernel.Hand

end
-- ==== Proof.BodyValKI.lean ====
/-
  The value the kernel body stores into the result's staging buffer, as ONE function of the two blocks it loads:
  the generated payloads composed as the body's three parts pass them on.
-/
import proofs.«160358_j32280974197216_2_alg».proof.Proof.Gen.KernelIdeal.Skeleton

noncomputable section

namespace Cert.KernelIdeal.Hand

open Idealize.ShloMosaic Cert.KernelIdeal Cert.KernelIdeal.Gen

variable {F : FTy → Type} [FloatOps F]

/-- The stored [2048, 9] block as a function of the loaded [2048, 3] block of log-scales `v0` and the loaded
    [2048, 4] block of quaternions `v1`. -/
def bodyVal (v0 : Vec F S2048x3 .f32) (v1 : Vec F S2048x4 .f32) : FVec F S2048x9 .f32 :=
  k0_pay1 (k0_pay24 v0 (k0_pay3 v1) (k0_pay4 v1) (k0_pay5 v1) (k0_pay6 v1))
    (k0_pay25 v0 (k0_pay3 v1) (k0_pay4 v1))
    (k0_pay26 v0 (k0_pay7 v1) (k0_pay8 v1) (k0_pay9 v1))
    (k0_pay27 v0 (k0_pay7 v1) (k0_pay8 v1) (k0_pay9 v1) (k0_pay10 v1) (k0_pay11 v1) (k0_pay12 v1))
    (k0_pay28 v0 (k0_pay3 v1) (k0_pay4 v1) (k0_pay5 v1) (k0_pay6 v1) (k0_pay7 v1) (k0_pay8 v1) (k0_pay9 v1))
    (k0_pay29 v0 (k0_pay10 v1) (k0_pay11 v1) (k0_pay12 v1))
    (k0_pay30 v0 (k0_pay3 v1) (k0_pay4 v1) (k0_pay5 v1) (k0_pay6 v1) (k0_pay10 v1) (k0_pay11 v1) (k0_pay12 v1))
    (k0_pay31 v0 (k0_pay3 v1) (k0_pay4 v1) (k0_pay5 v1) (k0_pay6 v1))

end Cert.KernelIdeal.Hand

end
-- ==== Proof.BodyKI.lean ====
/-
  The kernel body's triple. On whole staging buffers holding `x0` (a [2048, 3] block of log-scales), `x1` (a
  [2048, 4] block of quaternions) and anything in the result's buffer, the body loads the first two whole, computes,
  and stores the [2048, 9] block `bodyVal x0 x1` whole: the inputs' buffers are left as found.
-/
import proofs.«160358_j32280974197216_2_alg».proof.Proof.Gen.KernelIdeal.Launch
import proofs.«160358_j32280974197216_2_alg».proof.Proof.Gen.KernelIdeal.Skeleton
import proofs.«160358_j32280974197216_2_alg».proof.Proof.Gen.KernelIdeal.Points
import proofs.«160358_j32280974197216_2_alg».proof.Proof.BodyValKI
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's three accesses: each the whole buffer. -/
abbrev r0 : Rect S2048x3 := Rect.unit (s := S2048x3) ![0, 0] S2048x3.size inb_S2048x3_S2048x3_0_0
abbrev r1 : Rect S2048x4 := Rect.unit (s := S2048x4) ![0, 0] S2048x4.size inb_S2048x4_S2048x4_0_0
abbrev r2 : Rect S2048x9 := Rect.unit (s := S2048x9) ![0, 0] S2048x9.size inb_S2048x9_S2048x9_0_0

theorem zero_offsets : (![0, 0] : Fin 2 → Nat) = fun _ => 0 := funext fun a => by fin_cases a <;> rfl

/-- The one store covers the result's buffer. -/
theorem cover2 (p0 : Vec F S2048x9 .f32) (y : S2048x9.Idx) :
    ∃ pc ∈ ([⟨r2, p0⟩] : List (View.Piece (Elt F) S2048x9 .f32)), y ∈ pc.1.set :=
  ⟨_, List.mem_singleton_self _, View.mem_set_unit_zero zero_offsets inb_S2048x9_S2048x9_0_0 y⟩

set_option maxHeartbeats 4000000 in
/-- The body on whole staging memrefs: the inputs' at `x0`, `x1`, the result's at anything; it ends with the inputs'
    as they were and the result's at `bodyVal x0 x1`. -/
theorem sound_kernel (c : Dev nD) (E : Set ℕ) (i : grid0.Coords) (arg1 : Memref sig .tc .vmem S2048x3 .f32) (harg1 : arg1.IsWhole)
    (arg2 : Memref sig .tc .vmem S2048x4 .f32) (harg2 : arg2.IsWhole) (arg3 : Memref sig .tc .vmem S2048x9 .f32) (harg3 : arg3.IsWhole)
    (x0 : Vec F S2048x3 .f32) (x1 : Vec F S2048x4 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (bodyVal x0 x1)) -∗ K ⟨⟩))
      ⊢ wp frame (wpE (defs₀ (F := F)) Variants.none c none) E (cc0__gaussian_cov_kernel i arg1 harg1 arg2 harg2 arg3 harg3) K := by
  simp only [cc0__gaussian_cov_kernel_eq_skeleton]; unfold cc0__gaussian_cov_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  refine (View.read_writes_eq_canon _ _ _ (cover2 _)).trans ?_
  rw [View.canon_unit_zero zero_offsets]
  simp only [View.readAt_eq_ld, View.ld_unit_zero (S := S2048x3) zero_offsets, View.ld_unit_zero (S := S2048x4) zero_offsets]
  rfl

end Cert.KernelIdeal.Hand

end
-- ==== Proof.FrameKI.lean ====
/-
  The idealized kernel's run around its one region. The grid has 2442 points; point `t` works on rows
  `2048 t … 2048 t + 2047` of the three arrays, and the last point's block overhangs the arrays' 5,000,000 rows, so its
  transfers are cut: a fetch fills only the buffer's leading rows (the rest holds words nothing names), and the
  write-back writes only those rows. The proof data says what each staging buffer holds after the body ON THE ROWS THE
  TRANSFERS MOVE: the two inputs' blocks, and the body's value of them; what the body computes on the other rows is
  not stated, and need not be, because each output row depends on the same row of the inputs only (`hloc` below).
-/
import proofs.«160358_j32280974197216_2_alg».proof.Proof.Gen.KernelIdeal.Frame
import proofs.«160358_j32280974197216_2_alg».proof.Proof.BodyKI
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The two input blocks at point `t` as whole [2048, ·] buffers: the rows inside the array, filled out past the
    array's end with a fixed word nothing reads. -/
def in0 (c : Dev nD) (t : Fin cfg0.N) : S2048x3.Idx → Elt F .f32 :=
  win0_0.fill (grid0.coords t) (fun _ => Scalar.ofBits .f32 0#32) (iblk m c 0 t)
def in1 (c : Dev nD) (t : Fin cfg0.N) : S2048x4.Idx → Elt F .f32 :=
  win0_1.fill (grid0.coords t) (fun _ => Scalar.ofBits .f32 0#32) (iblk m c 1 t)
/-- The body's value of them. -/
def out2 (c : Dev nD) (t : Fin cfg0.N) : S2048x9.Idx → Elt F .f32 := bodyVal (in0 m c t) (in1 m c t)

/-- The proof data of the one pipeline on core `c`: the arrays as the region finds them; after the body at point `t`
    the inputs' buffers at their blocks and the result's at the body's value; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => in0 m c t
    | ⟨1, _⟩ => in1 m c t
    | ⟨2, _⟩ => out2 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = in0 m c t := by dsimp only [dats]
theorem after1 (c : Dev nD) (t : Fin cfg0.N) : (dats m 0 c).after 1 t = in1 m c t := by dsimp only [dats]
theorem after2 (c : Dev nD) (t : Fin cfg0.N) : (dats m 0 c).after 2 t = out2 m c t := by dsimp only [dats]

/-- The result's window is never fetched. -/
theorem fetch0_2 : ∀ t : Fin cfg0.N, (cfg0.win 2).fetch t = false :=
  (by decide +kernel : ∀ t : Fin grid0.N, win0_2.fetch t = false)

/-- What the body finds: each input's buffer just fetched — its block on the rows inside the array, `d` elsewhere —, -/
theorem before0 (c : Dev nD) (t : Fin cfg0.N) (d) :
    (dats m 0 c).before 0 t d = win0_0.fill (grid0.coords t) d (iblk m c 0 t) := by
  unfold Dat.before; rw [if_pos (fetch0_0 t)]; rfl
theorem before1 (c : Dev nD) (t : Fin cfg0.N) (d) :
    (dats m 0 c).before 1 t d = win0_1.fill (grid0.coords t) d (iblk m c 1 t) := by
  unfold Dat.before; rw [if_pos (fetch0_1 t)]; rfl
/-- the result's buffer at contents nothing names (it was written back at the point before). -/
theorem before2 (c : Dev nD) (t : Fin cfg0.N) (d) : (dats m 0 c).before 2 t d = d := by
  unfold Dat.before
  rw [if_neg (by rw [fetch0_2 t]; exact Bool.false_ne_true)]
  by_cases h0 : t.val = 0
  · rw [if_pos h0]
  · rw [if_neg h0]; exact if_pos (flush0_2 _)

/-! ## The body obligation -/

/-- The library's body obligation, from the body's triple at the point's staging buffers. The inputs' buffers arrive
    holding their blocks filled out with some `d` past the array's end, the result's holding anything; the inputs' leave
    as they came and the result's holds the body's value of them, which ON THE ROWS THE WRITE-BACK MOVES is the value
    of the blocks however they were filled out (`hloc`: an output row depends on that row of the inputs only). -/
theorem body_obligation (c : Dev nD)
    (hloc : ∀ (t : Fin cfg0.N) (d0 : S2048x3.Idx → Elt F .f32) (d1 : S2048x4.Idx → Elt F .f32),
      win0_2.cut (grid0.coords t) (bodyVal (win0_0.fill (grid0.coords t) d0 (iblk m c 0 t)) (win0_1.fill (grid0.coords t) d1 (iblk m c 1 t)))
        = win0_2.cut (grid0.coords t) (out2 m c t)) :
    BodyObligationLoose (dats m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before0 m c t d0, before1 m c t d1, before2 m c t d2]
  iapply (sound_kernel (F := F) c Set.univ (grid0.coords t) _ _ _ _ _ _
    (win0_0.fill (grid0.coords t) d0 (iblk m c 0 t)) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  have h0 : win0_0.cut (grid0.coords t) (in0 m c t) = iblk m c 0 t := win0_0.cut_fill _ _ _
  have h1 : win0_1.cut (grid0.coords t) (in1 m c t) = iblk m c 1 t := win0_1.cut_fill _ _ _
  isplitl [H0]
  · iexists d0
    change _ ⊢ owns (c : Thread nD τ) (stage0_0 (cfg0.slots t 0)) fullShare (win0_0.fill (grid0.coords t) d0 (win0_0.cut (grid0.coords t) (in0 m c t)))
    rw [h0]; try iexact H0
  isplitl [H1]
  · iexists d1
    change _ ⊢ owns (c : Thread nD τ) (stage0_1 (cfg0.slots t 1)) fullShare (win0_1.fill (grid0.coords t) d1 (win0_1.cut (grid0.coords t) (in1 m c t)))
    rw [h1]; try iexact H1
  · iexists bodyVal (win0_0.fill (grid0.coords t) d0 (iblk m c 0 t)) (win0_1.fill (grid0.coords t) d1 (iblk m c 1 t))
    change _ ⊢ owns (c : Thread nD τ) (stage0_2 (cfg0.slots t 2)) fullShare (win0_2.fill (grid0.coords t) _ (win0_2.cut (grid0.coords t) (out2 m c t)))
    rw [← hloc t d0 d1, win0_2.fill_cut]; try iexact H2

end Cert.KernelIdeal.Hand

end
-- ==== Proof.RunKI.lean ====
/-
  The idealized kernel's run: the pipeline's frame run continued through the one host line after the region (the
  reshape of the [5000000, 9] result to [5000000, 3, 3]), and the frame conclusion read off it.
-/
import proofs.«160358_j32280974197216_2_alg».proof.Proof.FrameKI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- Row-locality of the body's value on the rows the write-back moves, at every core and point: what the body
    obligation needs (FrameKI). -/
def RowLocal : Prop :=
  ∀ (c : Dev nD) (t : Fin cfg0.N) (d0 : S2048x3.Idx → Elt F .f32) (d1 : S2048x4.Idx → Elt F .f32),
    win0_2.cut (grid0.coords t) (bodyVal (win0_0.fill (grid0.coords t) d0 (iblk m c 0 t)) (win0_1.fill (grid0.coords t) d1 (iblk m c 1 t)))
      = win0_2.cut (grid0.coords t) (out2 m c t)

set_option backward.isDefEq.respectTransparency.types false in
/-- Every weakly fair execution of @main terminates, with every array of the pipeline at what the write-backs leave and
    every other buffer at what the host line after the region computes from them. -/
theorem run_main (hloc : RowLocal m) : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c (hloc c)) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run ends with the two argument arrays as launched. -/
theorem frame (hloc : RowLocal m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ hloc)

end Cert.KernelIdeal.Hand

end
-- ==== Proof.Spec.lean ====
/-
  The common value of the two programs, as one function of the two argument arrays.

  Row `n` of `rotation` is a quaternion `q = (x, y, z, w)`, row `n` of `scaling` three log-scales `a`. With
  `u = q / ‖q‖` the unit quaternion, `R(u)` its rotation matrix and `S = diag (exp a)`, both programs compute the
  3 × 3 matrix `(R S) (R S)ᵀ + ε I`: entry `(i, j)` is `∑ₖ (R i k · exp aₖ) · (R j k · exp aₖ)`, plus `ε` on the diagonal.
  Everything here is over the reals (the inputs are finite and `‖q‖ ≠ 0` under the precondition); `ε` is kept as the
  float word both programs carry and is never evaluated.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The rotation matrix of a quaternion `(x, y, z, w)` (a unit one where it is used). -/
def rotOf (x y z w : ℝ) : Fin 3 → Fin 3 → ℝ :=
  ![![1 - 2 * (y * y + z * z), 2 * (x * y - w * z), 2 * (x * z + w * y)],
    ![2 * (x * y + w * z), 1 - 2 * (x * x + z * z), 2 * (y * z - w * x)],
    ![2 * (x * z - w * y), 2 * (y * z + w * x), 1 - 2 * (x * x + y * y)]]

/-- `1 / ‖q‖`. -/
def invNorm (q : Fin 4 → ℝ) : ℝ := (Real.sqrt (∑ k : Fin 4, q k * q k))⁻¹

/-- The rotation matrix of `q / ‖q‖`. -/
def rot (q : Fin 4 → ℝ) : Fin 3 → Fin 3 → ℝ :=
  rotOf (q 0 * invNorm q) (q 1 * invNorm q) (q 2 * invNorm q) (q 3 * invNorm q)

/-- `((R S) (R S)ᵀ) i j` with `S = diag (exp a)`. -/
def cov (a : Fin 3 → ℝ) (q : Fin 4 → ℝ) (i j : Fin 3) : ℝ :=
  ∑ k : Fin 3, (rot q i k * Real.exp (a k)) * (rot q j k * Real.exp (a k))

/-- The diagonal term `ε`: the f32 word both programs add, as the extended real it denotes. -/
def epsE : EReal := Ideal.ofBits .f32 0x33D6BF95#32

/-- Entry `(i, j)` of the result for one row. -/
def entry (a : Fin 3 → ℝ) (q : Fin 4 → ℝ) (i j : Fin 3) : EReal :=
  ((cov a q i j : ℝ) : EReal) + (if i = j then epsE else 0)

abbrev SN3 : Shape := ⟨2, ![5000000, 3]⟩
abbrev SN4 : Shape := ⟨2, ![5000000, 4]⟩
abbrev SN33 : Shape := ⟨3, ![5000000, 3, 3]⟩

/-- The result array as a function of the two argument arrays. -/
def G (sc : SN3.Idx → EReal) (ro : SN4.Idx → EReal) : SN33.Idx → EReal := fun idx =>
  entry (fun k => (sc (ix2 (idx 0 : Fin 5000000) k)).toReal) (fun k => (ro (ix2 (idx 0 : Fin 5000000) k)).toReal)
    (idx 1 : Fin 3) (idx 2 : Fin 3)

theorem G_apply (sc : SN3.Idx → EReal) (ro : SN4.Idx → EReal) (n : Fin 5000000) (i j : Fin 3) :
    G sc ro (ix3 n i j) = entry (fun k => (sc (ix2 n k)).toReal) (fun k => (ro (ix2 n k)).toReal) i j := rfl

/-- What the precondition gives: every entry of both arrays is a real number, and no quaternion row is zero. -/
def Good (sc : SN3.Idx → EReal) (ro : SN4.Idx → EReal) : Prop :=
  ∃ (a : Fin 5000000 → Fin 3 → ℝ) (q : Fin 5000000 → Fin 4 → ℝ),
    (∀ n k, sc (ix2 n k) = ((a n k : ℝ) : EReal)) ∧ (∀ n k, ro (ix2 n k) = ((q n k : ℝ) : EReal))
      ∧ ∀ n, 0 < ∑ k : Fin 4, q n k * q n k

/-- Under `Good` the result at `(n, i, j)` is `entry` of the rows' real values. -/
theorem G_of_good {sc : SN3.Idx → EReal} {ro : SN4.Idx → EReal} {a : Fin 5000000 → Fin 3 → ℝ} {q : Fin 5000000 → Fin 4 → ℝ}
    (ha : ∀ n k, sc (ix2 n k) = ((a n k : ℝ) : EReal)) (hq : ∀ n k, ro (ix2 n k) = ((q n k : ℝ) : EReal))
    (n : Fin 5000000) (i j : Fin 3) : G sc ro (ix3 n i j) = entry (a n) (q n) i j := by
  rw [G_apply]
  congr 1 <;> funext k
  · rw [ha n k, EReal.toReal_coe]
  · rw [hq n k, EReal.toReal_coe]

end Cert.Spec

end
-- ==== Proof.ValueKI.lean ====
/-
  The value of the idealized kernel's result. Point `t` of the grid writes back rows `2048 t … ` of the [5000000, 9]
  result (all 2048 of them, or the 832 inside the array at the last point); row `p` of the block is the nine entries of
  `(R S)(R S)ᵀ + ε I` for array row `n = 2048 t + p`, because an output row of the body depends on that row of its two
  input blocks only, and those are rows `n` of the argument arrays. The blocks cover the array, so it ends holding that
  function of the arguments everywhere; the host line after the region relabels [5000000, 9] as [5000000, 3, 3].
-/
import proofs.«160358_j32280974197216_2_alg».proof.Proof.RunKI
import proofs.«160358_j32280974197216_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The printed index maps and cuts, decided over the grid: block `t` of each window starts at row `2048 t` and spans
    every column; the transfers move `min 2048 (5000000 - 2048 t)` rows of it. -/
theorem idx_facts : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = t.val ∧ win0_2.index t (1 : Fin 2) = 0
  ∧ win0_0.xsize (grid0.coords t) (0 : Fin 2) = min 2048 (5000000 - t.val * 2048) ∧ win0_0.xsize (grid0.coords t) (1 : Fin 2) = 3
  ∧ win0_1.xsize (grid0.coords t) (0 : Fin 2) = min 2048 (5000000 - t.val * 2048) ∧ win0_1.xsize (grid0.coords t) (1 : Fin 2) = 4
  ∧ win0_2.xsize (grid0.coords t) (0 : Fin 2) = min 2048 (5000000 - t.val * 2048) ∧ win0_2.xsize (grid0.coords t) (1 : Fin 2) = 9 :=
  (by decide +kernel : ∀ t : Fin grid0.N, _)

variable (m : (ℓ : Loc nD τ sig) → Buf (Elt Ideal) ℓ) (ρ : Dev nD → PrngReg)

/-- The row lemma this module rests on (proved of the body's value in its own module): an output row of the body is
    `Spec.entry` of the same row of the two input blocks, when that row holds reals and the quaternion is not zero. -/
def RowSpec : Prop :=
  ∀ (X0 : Vec Ideal S2048x3 .f32) (X1 : Vec Ideal S2048x4 .f32) (p : Fin 2048) (a : Fin 3 → ℝ) (q : Fin 4 → ℝ),
    (∀ k : Fin 3, X0 (ix2 p k) = ((a k : ℝ) : EReal)) → (∀ k : Fin 4, X1 (ix2 p k) = ((q k : ℝ) : EReal)) →
    0 < ∑ k : Fin 4, q k * q k → ∀ (i j : Fin 3) (h : 3 * i.val + j.val < 9),
      bodyVal (F := Ideal) X0 X1 (ix2 p (⟨3 * i.val + j.val, h⟩ : Fin 9)) = Cert.Spec.entry a q i j

/-- The [5000000, 9] result as a function of the rows' real values: entry `(n, 3 i + j)` is `Spec.entry` at `(i, j)`. -/
def G9 (a : Fin 5000000 → Fin 3 → ℝ) (q : Fin 5000000 → Fin 4 → ℝ) : S5000000x9.Idx → EReal := fun i =>
  Cert.Spec.entry (a (i 0 : Fin 5000000)) (q (i 0 : Fin 5000000)) ⟨(i 1 : Fin 9).val / 3, by have h : (i 1 : Fin 9).val < 9 := (i 1 : Fin 9).isLt; omega⟩
    ⟨(i 1 : Fin 9).val % 3, Nat.mod_lt _ (by decide)⟩

theorem G9_apply (a : Fin 5000000 → Fin 3 → ℝ) (q : Fin 5000000 → Fin 4 → ℝ) (n : Fin 5000000) (cc : Fin 9) :
    G9 a q (ix2 n cc) = Cert.Spec.entry (a n) (q n) ⟨cc.val / 3, by have := cc.isLt; omega⟩ ⟨cc.val % 3, Nat.mod_lt _ (by decide)⟩ := rfl

/-- An input block read at a row the fetch moved is the argument array's row: window 0 (the log-scales), -/
theorem fill0_apply (c : Dev nD) (t : Fin cfg0.N) (d0 : S2048x3.Idx → Elt Ideal .f32) (p : Fin 2048) (k : Fin 3)
    (hp : t.val * 2048 + p.val < 5000000) :
    win0_0.fill (grid0.coords t) d0 (iblk m c 0 t) (ix2 p k)
      = m ((c : Thread nD τ).loc main_arg0) (ix2 (⟨t.val * 2048 + p.val, hp⟩ : Fin 5000000) k) := by
  obtain ⟨e00, e01, e10, e11, e20, e21, x00, x01, x10, x11, x20, x21⟩ := idx_facts t
  have hmv : win0_0.moved (grid0.coords t) (ix2 p k) = true := (win0_0.moved_iff _ _).mpr fun a' => by
    match a' with
    | ⟨0, _⟩ => show p.val < win0_0.xsize (grid0.coords t) (0 : Fin 2); rw [x00]; have := p.isLt; omega
    | ⟨1, _⟩ => show k.val < win0_0.xsize (grid0.coords t) (1 : Fin 2); rw [x01]; exact k.isLt
  unfold Window.fill
  rw [dif_pos hmv]
  show m ((c : Thread nD τ).loc main_arg0) (((cfg0.win 0).blk t).view.emb _) = _
  refine congrArg _ ?_
  funext a'; apply Fin.ext
  match a' with
  | ⟨0, _⟩ => show win0_0.index t (0 : Fin 2) * 2048 + 1 * p.val = t.val * 2048 + p.val; rw [e00]; omega
  | ⟨1, _⟩ => show win0_0.index t (1 : Fin 2) * 3 + 1 * k.val = k.val; rw [e01]; omega

/-- and window 1 (the quaternions). -/
theorem fill1_apply (c : Dev nD) (t : Fin cfg0.N) (d1 : S2048x4.Idx → Elt Ideal .f32) (p : Fin 2048) (k : Fin 4)
    (hp : t.val * 2048 + p.val < 5000000) :
    win0_1.fill (grid0.coords t) d1 (iblk m c 1 t) (ix2 p k)
      = m ((c : Thread nD τ).loc main_arg1) (ix2 (⟨t.val * 2048 + p.val, hp⟩ : Fin 5000000) k) := by
  obtain ⟨e00, e01, e10, e11, e20, e21, x00, x01, x10, x11, x20, x21⟩ := idx_facts t
  have hmv : win0_1.moved (grid0.coords t) (ix2 p k) = true := (win0_1.moved_iff _ _).mpr fun a' => by
    match a' with
    | ⟨0, _⟩ => show p.val < win0_1.xsize (grid0.coords t) (0 : Fin 2); rw [x10]; have := p.isLt; omega
    | ⟨1, _⟩ => show k.val < win0_1.xsize (grid0.coords t) (1 : Fin 2); rw [x11]; exact k.isLt
  unfold Window.fill
  rw [dif_pos hmv]
  show m ((c : Thread nD τ).loc main_arg1) (((cfg0.win 1).blk t).view.emb _) = _
  refine congrArg _ ?_
  funext a'; apply Fin.ext
  match a' with
  | ⟨0, _⟩ => show win0_1.index t (0 : Fin 2) * 2048 + 1 * p.val = t.val * 2048 + p.val; rw [e10]; omega
  | ⟨1, _⟩ => show win0_1.index t (1 : Fin 2) * 4 + 1 * k.val = k.val; rw [e11]; omega

-- the rows' real values, per core: what the precondition provides
variable (A : Dev nD → Fin 5000000 → Fin 3 → ℝ) (Q : Dev nD → Fin 5000000 → Fin 4 → ℝ)

/-- WHAT POINT `t` WRITES BACK, however the input buffers were filled out past the arrays' end: block `t` of `G9`. -/
theorem block_value (hrow : RowSpec)
    (ha : ∀ (c : Dev nD) n k, m ((c : Thread nD τ).loc main_arg0) (ix2 n k) = ((A c n k : ℝ) : EReal))
    (hq : ∀ (c : Dev nD) n k, m ((c : Thread nD τ).loc main_arg1) (ix2 n k) = ((Q c n k : ℝ) : EReal))
    (hpos : ∀ c n, 0 < ∑ k : Fin 4, Q c n k * Q c n k)
    (c : Dev nD) (t : Fin cfg0.N) (d0 : S2048x3.Idx → Elt Ideal .f32) (d1 : S2048x4.Idx → Elt Ideal .f32) :
    win0_2.cut (grid0.coords t) (bodyVal (win0_0.fill (grid0.coords t) d0 (iblk m c 0 t)) (win0_1.fill (grid0.coords t) d1 (iblk m c 1 t)))
      = ((cfg0.win 2).blk t).view.read (Elt Ideal) (G9 (A c) (Q c)) := by
  obtain ⟨e00, e01, e10, e11, e20, e21, x00, x01, x10, x11, x20, x21⟩ := idx_facts t
  funext j
  have hj0 : (j 0).val < win0_2.xsize (grid0.coords t) (0 : Fin 2) := (j 0).isLt
  have hj1 : (j 1).val < win0_2.xsize (grid0.coords t) (1 : Fin 2) := (j 1).isLt
  rw [x20] at hj0; rw [x21] at hj1
  have hp : (j 0).val < 2048 := by omega
  have hn : t.val * 2048 + (j 0).val < 5000000 := by omega
  have hc3 : 3 * ((j 1).val / 3) + (j 1).val % 3 < 9 := by omega
  show bodyVal (F := Ideal) _ _ (win0_2.xinj (grid0.coords t) j) = G9 (A c) (Q c) (((cfg0.win 2).blk t).view.emb j)
  have hx : win0_2.xinj (grid0.coords t) j
      = ix2 (⟨(j 0).val, hp⟩ : Fin 2048) (⟨3 * ((j 1).val / 3) + (j 1).val % 3, hc3⟩ : Fin 9) := by
    funext a'; apply Fin.ext
    match a' with
    | ⟨0, _⟩ => rfl
    | ⟨1, _⟩ => show (j 1).val = 3 * ((j 1).val / 3) + (j 1).val % 3; omega
  have he : ((cfg0.win 2).blk t).view.emb j = ix2 (⟨t.val * 2048 + (j 0).val, hn⟩ : Fin 5000000) (⟨(j 1).val, hj1⟩ : Fin 9) := by
    funext a'; apply Fin.ext
    match a' with
    | ⟨0, _⟩ => show win0_2.index t (0 : Fin 2) * 2048 + 1 * (j 0).val = t.val * 2048 + (j 0).val; rw [e20]; omega
    | ⟨1, _⟩ => show win0_2.index t (1 : Fin 2) * 9 + 1 * (j 1).val = (j 1).val; rw [e21]; omega
  rw [hx, he, G9_apply]
  exact hrow _ _ ⟨(j 0).val, hp⟩ (A c ⟨t.val * 2048 + (j 0).val, hn⟩) (Q c ⟨t.val * 2048 + (j 0).val, hn⟩)
    (fun k => (fill0_apply m c t d0 ⟨(j 0).val, hp⟩ k hn).trans (ha c _ k))
    (fun k => (fill1_apply m c t d1 ⟨(j 0).val, hp⟩ k hn).trans (hq c _ k))
    (hpos c _) ⟨(j 1).val / 3, by omega⟩ ⟨(j 1).val % 3, Nat.mod_lt _ (by decide)⟩ hc3

section Final

variable (hrow : RowSpec)
  (ha : ∀ (c : Dev nD) n k, m ((c : Thread nD τ).loc main_arg0) (ix2 n k) = ((A c n k : ℝ) : EReal))
  (hq : ∀ (c : Dev nD) n k, m ((c : Thread nD τ).loc main_arg1) (ix2 n k) = ((Q c n k : ℝ) : EReal))
  (hpos : ∀ c n, 0 < ∑ k : Fin 4, Q c n k * Q c n k)

include hrow ha hq hpos

/-- Row-locality on the moved rows: however the buffers were filled out, the write-back's part is block `t` of `G9`. -/
theorem rowLocal : RowLocal m := fun c t d0 d1 =>
  (block_value m A Q hrow ha hq hpos c t d0 d1).trans (block_value m A Q hrow ha hq hpos c t _ _).symm

/-- What point `t` writes back is block `t` of `G9`. -/
theorem flushed_eq (c : Dev nD) (t : Fin cfg0.N) :
    (dats m 0 c).flushed 2 t = ((cfg0.win 2).blk t).view.read (Elt Ideal) (G9 (A c) (Q c)) := by
  show (cfg0.win 2).cut (grid0.coords t) ((dats m 0 c).after 2 t) = _
  rw [after2]
  exact block_value m A Q hrow ha hq hpos c t _ _

omit hrow ha hq hpos in
/-- An index of the result array is in point `t`'s write-back iff each coordinate is in the moved range on its axis. -/
theorem mem_blk (t : Fin cfg0.N) (i : S5000000x9.Idx) :
    i ∈ ((cfg0.win 2).blk t).view.set ↔ ∀ a' : Fin 2, win0_2.index t a' * S2048x9.size a' ≤ (i a').val
      ∧ (i a').val < win0_2.index t a' * S2048x9.size a' + win0_2.xsize (grid0.coords t) a' := by
  show i ∈ ((View.whole main_v0).slice (win0_2.rect t)).set ↔ _
  rw [View.set_slice_whole, Rect.mem_set_unit]
  exact Iff.rfl

omit hrow ha hq hpos in
/-- THE COVER: row `r` of the array is written back by point `r / 2048`. -/
theorem cover (i : S5000000x9.Idx) : ∃ t : Fin cfg0.N, (cfg0.win 2).flush t = true ∧ i ∈ ((cfg0.win 2).blk t).view.set := by
  have hi0 : (i 0).val < 5000000 := (i 0).isLt
  have hi1 : (i 1).val < 9 := (i 1).isLt
  have hN : cfg0.N = 2442 := N_0
  have ht : (i 0).val / 2048 < cfg0.N := by rw [hN]; omega
  refine ⟨⟨(i 0).val / 2048, ht⟩, flush0_2 _, ?_⟩
  obtain ⟨e00, e01, e10, e11, e20, e21, x00, x01, x10, x11, x20, x21⟩ := idx_facts ⟨(i 0).val / 2048, ht⟩
  rw [mem_blk]
  intro a'
  match a' with
  | ⟨0, _⟩ =>
    show win0_2.index ⟨(i 0).val / 2048, ht⟩ (0 : Fin 2) * 2048 ≤ (i 0).val
      ∧ (i 0).val < win0_2.index ⟨(i 0).val / 2048, ht⟩ (0 : Fin 2) * 2048 + win0_2.xsize (grid0.coords ⟨(i 0).val / 2048, ht⟩) (0 : Fin 2)
    rw [e20, x20]
    show (i 0).val / 2048 * 2048 ≤ (i 0).val ∧ (i 0).val < (i 0).val / 2048 * 2048 + min 2048 (5000000 - (i 0).val / 2048 * 2048)
    omega
  | ⟨1, _⟩ =>
    show win0_2.index ⟨(i 0).val / 2048, ht⟩ (1 : Fin 2) * 9 ≤ (i 1).val
      ∧ (i 1).val < win0_2.index ⟨(i 0).val / 2048, ht⟩ (1 : Fin 2) * 9 + win0_2.xsize (grid0.coords ⟨(i 0).val / 2048, ht⟩) (1 : Fin 2)
    rw [e21, x21]
    omega

/-- THE RESULT ARRAY of the region after the run: `G9` everywhere. -/
theorem final (c : Dev nD) : (dats m 0 c).arrAt 2 cfg0.N = G9 (A c) (Q c) :=
  (dats m 0 c).arrAt_eq_of_cover 2 (G9 (A c) (Q c)) (fun t _ => flushed_eq m A Q hrow ha hq hpos c t) cover

/-- THE RESULT after the host line: the [5000000, 9] array relabelled [5000000, 3, 3] is `Spec.G` of the arguments:
    entry `(n, i, j)` has the row-major place of `(n, 3 i + j)`. -/
theorem result_eq (c : Dev nD) :
    Pipeline.afterTail₀ cfgs (dats m) 0 (V0 m) [hostOps1] c main_v1
      = Cert.Spec.G (m ((c : Thread nD τ).loc main_arg0)) (m ((c : Thread nD τ).loc main_arg1)) := by
  have hw : Pipeline.withArrays (cfgs 0).spec c (V0 m c) (fun w => (dats m 0 c).arrAt w (cfgs 0).N) (Proc.devRef .tc main_v0)
      = G9 (A c) (Q c) :=
    (Pipeline.withArrays_arr spec0 launch0.win.arr_inj c _ _ 2).trans (final m A Q hrow ha hq hpos c)
  unfold Pipeline.afterTail₀
  show StableHlo.after hostOps1 _ (Proc.devRef .tc main_v1) = _
  after_results
  rw [hw]
  funext idx
  obtain ⟨n, i, j, rfl⟩ : ∃ (n : Fin 5000000) (i j : Fin 3), idx = ix3 n i j := ⟨idx 0, idx 1, idx 2, eq_ix3 idx⟩
  rw [Cert.Spec.G_of_good (ha c) (hq c) n i j]
  have h9 : 3 * i.val + j.val < 9 := by have := i.isLt; have := j.isLt; omega
  show shapeCast S5000000x3x3 (G9 (A c) (Q c)) shapeCasts_S5000000x9_S5000000x3x3 (ix3 n i j) = _
  rw [shapeCast_apply (G9 (A c) (Q c)) shapeCasts_S5000000x9_S5000000x3x3 (ix3 n i j) (ix2 n (⟨3 * i.val + j.val, h9⟩ : Fin 9))
    (by rw [Shape.rowMajor_val_two, Shape.rowMajor_val_three]
        show n.val * 9 + (3 * i.val + j.val) = (n.val * 3 + i.val) * 3 + j.val
        omega), G9_apply]
  have hi : (⟨(3 * i.val + j.val) / 3, by omega⟩ : Fin 3) = i := Fin.ext (by show (3 * i.val + j.val) / 3 = i.val; have := j.isLt; omega)
  have hj : (⟨(3 * i.val + j.val) % 3, Nat.mod_lt _ (by decide)⟩ : Fin 3) = j := Fin.ext (by show (3 * i.val + j.val) % 3 = j.val; have := j.isLt; omega)
  rw [hi, hj]

/-- THE RUN, READ: every weakly fair execution of the idealized kernel's @main terminates with its result at `Spec.G`
    of the argument arrays and the arguments as launched. -/
theorem run : θ_run defs (onTc (τ := τ) (main (F := Ideal))) ⟨m, fun _ => 0, ρ⟩ fun r => ∀ c : Dev nD,
      r.2.mem ((c.tc : Thread nD τ).loc main_v1)
        = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v1 (by decide)).trans (result_eq m A Q hrow ha hq hpos c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ (rowLocal m A Q hrow ha hq hpos))

end Final

end Cert.KernelIdeal.Hand

end
-- ==== Proof.LibKeepdimsCol.lean ====
/-
  Two layout operations read at an index given by coordinates, for any element type and any extents:
  the shape cast that appends a unit axis to a vector, and the broadcast of a one-column matrix along its rows.
  Together they are what a row statistic kept as a column (a sum over the last axis with the axis kept)
  looks like when it is spread back over a matrix.
-/
import Idealize.ShloMosaic.Lib.ValueLayout

namespace Cert.LibKeepdimsCol

open Idealize.ShloMosaic Idealize.ShloMosaic.ValueIdx

variable {α : Type}

/-- A vector of length `a` cast to an `a × 1` column reads, at `(i, u)`, the vector at `i`: both sit at
    row-major position `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsCol
-- ==== Proof.RowOps.lean ====
/-
  The operations of the body that are not pointwise, read at one row `p`: the sum over a row's four lanes, the
  reciprocal square root kept as a column and spread back over the row, and the column slices. From them, the
  value at row `p` of the normalised quaternion block and of the block of exponentials, as coerced reals.
-/
import proofs.«160358_j32280974197216_2_alg».proof.Proof.BodyValKI
import proofs.«160358_j32280974197216_2_alg».proof.Proof.Spec
import proofs.«160358_j32280974197216_2_alg».proof.Proof.LibKeepdimsCol
import Idealize.ShloMosaic.Lib.ValueLayout
import Idealize.ShloMosaic.Lib.IdealHost
import Idealize.ShloMosaic.PureOps.Ideal.Laws

noncomputable section

namespace Cert.KernelIdeal.Hand

open Idealize.ShloMosaic Idealize.ShloMosaic.ValueIdx Cert.KernelIdeal Cert.KernelIdeal.Gen

/-- The sum over axis 1 of a [2048, 4] block, read at row `p`, is the sum of the row's four entries. -/
theorem laneSum_row (v : FVec Ideal S2048x4 .f32) (h : S2048x4.Reduces [1] S2048) (hφ : FKind.Formats .f32)
    (hacc : (0x00000000#32 : BitVec 32) = 0x00000000#32) (p : Fin 2048) :
    multiReduction (F := Ideal) .add [1] S2048 v 0x00000000#32 h hφ hacc (ix1 p) = ∑ k : Fin 4, v (ix2 p k) := by
  refine (Ideal.multiReduction_add_single v 0x00000000#32 h hφ hacc (ix1 p)).trans ?_
  show ∑ k : Fin 4, v (h.lift (ix1 p) k) = ∑ k : Fin 4, v (ix2 p k)
  refine Finset.sum_congr rfl fun k _ => congrArg v ?_
  funext a
  match a with
  | ⟨0, _⟩ => exact Fin.ext rfl
  | ⟨1, _⟩ => exact Fin.ext rfl

/-- The coercion of reals into the extended reals commutes with a finite sum. -/
theorem coe_sum_fin4 (f : Fin 4 → ℝ) : (∑ k : Fin 4, ((f k : ℝ) : EReal)) = ((∑ k : Fin 4, f k : ℝ) : EReal) := by
  simp only [Fin.sum_univ_four, EReal.coe_add]

/-- The f32 word of `2.0` is the real two. -/
theorem ofBits_two_f32 : Ideal.ofBits .f32 0x40000000#32 = ((2 : ℝ) : EReal) := by
  simp [Ideal.ofBits, Ideal.ieee, -EReal.coe_mul]; norm_num

/-- The f32 word of `1.0` is the real one. -/
theorem ofBits_one_f32' : Ideal.ofBits .f32 0x3F800000#32 = ((1 : ℝ) : EReal) := by
  rw [Ideal.ofBits_one_f32]; norm_cast

/-- Row `p` of the normalised quaternion block: entry `k` is `q k / ‖q‖`, when the row of the loaded block holds the
    reals `q` and `q ≠ 0`. Nothing is asked of the other rows. -/
theorem pay2_row (X1 : FVec Ideal S2048x4 .f32) (p : Fin 2048) (q : Fin 4 → ℝ)
    (hq : ∀ k : Fin 4, X1 (ix2 p k) = ((q k : ℝ) : EReal)) (hpos : 0 < ∑ k : Fin 4, q k * q k) (k : Fin 4) :
    k0_pay2 (F := Ideal) X1 (ix2 p k) = ((q k * Cert.Spec.invNorm q : ℝ) : EReal) := by
  unfold k0_pay2
  show X1 (ix2 p k) * broadcastTo S2048x4 (rsqrt (shapeCast S2048x1 (multiReduction (F := Ideal) .add [1] S2048 (mulf X1 X1)
    0x00000000#32 reduces_S2048x4_S2048 (.inl rfl) rfl) shapeCasts_S2048_S2048x1)) broadcasts_S2048x1_S2048x4 (ix2 p k) = _
  rw [Cert.LibKeepdimsCol.broadcastTo_a1_ab_apply]
  show X1 (ix2 p k) * Ideal.rsqrt (shapeCast S2048x1 (multiReduction (F := Ideal) .add [1] S2048 (mulf X1 X1)
    0x00000000#32 reduces_S2048x4_S2048 (.inl rfl) rfl) shapeCasts_S2048_S2048x1 (ix2 p (0 : Fin 1))) = _
  rw [Cert.LibKeepdimsCol.shapeCast_a_a1_apply, laneSum_row]
  have hs : (∑ k : Fin 4, mulf X1 X1 (ix2 p k)) = ((∑ k : Fin 4, q k * q k : ℝ) : EReal) := by
    rw [← coe_sum_fin4]
    refine Finset.sum_congr rfl fun k _ => ?_
    rw [mulf_apply, hq k, EReal.coe_mul]
  rw [hs, hq k, Ideal.rsqrt_coe, if_neg (not_lt.2 hpos.le), if_neg hpos.ne', ← EReal.coe_mul]
  rfl

section Quaternion
variable (X1 : FVec Ideal S2048x4 .f32) (p : Fin 2048) (q : Fin 4 → ℝ)
  (hq : ∀ k : Fin 4, X1 (ix2 p k) = ((q k : ℝ) : EReal)) (hpos : 0 < ∑ k : Fin 4, q k * q k)
include hq hpos

/-- The four columns of the unit quaternion at row `p`. -/
theorem pay3_row : k0_pay3 (F := Ideal) X1 (ix2 p (0 : Fin 1)) = ((q 0 * Cert.Spec.invNorm q : ℝ) : EReal) :=
  (slice2_axis1_apply 0 (k0_pay2 (F := Ideal) X1) slices_S2048x4_o0_0_S2048x1 p (0 : Fin 1) (0 : Fin 4) rfl).trans (pay2_row X1 p q hq hpos 0)

theorem pay4_row : k0_pay4 (F := Ideal) X1 (ix2 p (0 : Fin 1)) = ((q 1 * Cert.Spec.invNorm q : ℝ) : EReal) :=
  (slice2_axis1_apply 1 (k0_pay2 (F := Ideal) X1) slices_S2048x4_o0_1_S2048x1 p (0 : Fin 1) (1 : Fin 4) rfl).trans (pay2_row X1 p q hq hpos 1)

theorem pay5_row : k0_pay5 (F := Ideal) X1 (ix2 p (0 : Fin 1)) = ((q 2 * Cert.Spec.invNorm q : ℝ) : EReal) :=
  (slice2_axis1_apply 2 (k0_pay2 (F := Ideal) X1) slices_S2048x4_o0_2_S2048x1 p (0 : Fin 1) (2 : Fin 4) rfl).trans (pay2_row X1 p q hq hpos 2)

theorem pay6_row : k0_pay6 (F := Ideal) X1 (ix2 p (0 : Fin 1)) = ((q 3 * Cert.Spec.invNorm q : ℝ) : EReal) :=
  (slice2_axis1_apply 3 (k0_pay2 (F := Ideal) X1) slices_S2048x4_o0_3_S2048x1 p (0 : Fin 1) (3 : Fin 4) rfl).trans (pay2_row X1 p q hq hpos 3)

end Quaternion

section Scales
variable (X0 : FVec Ideal S2048x3 .f32) (p : Fin 2048) (a : Fin 3 → ℝ)
  (ha : ∀ k : Fin 3, X0 (ix2 p k) = ((a k : ℝ) : EReal))
include ha

/-- Row `p` of the block of exponentials. -/
theorem pay13_row (k : Fin 3) : k0_pay13 (F := Ideal) X0 (ix2 p k) = ((Real.exp (a k) : ℝ) : EReal) := by
  show Ideal.exp (X0 (ix2 p k)) = _
  rw [ha k]; rfl

theorem pay14_row : k0_pay14 (F := Ideal) X0 (ix2 p (0 : Fin 1)) = ((Real.exp (a 0) : ℝ) : EReal) :=
  (slice2_axis1_apply 0 (k0_pay13 (F := Ideal) X0) slices_S2048x3_o0_0_S2048x1 p (0 : Fin 1) (0 : Fin 3) rfl).trans (pay13_row X0 p a ha 0)

theorem pay15_row : k0_pay15 (F := Ideal) X0 (ix2 p (0 : Fin 1)) = ((Real.exp (a 1) : ℝ) : EReal) :=
  (slice2_axis1_apply 1 (k0_pay13 (F := Ideal) X0) slices_S2048x3_o0_1_S2048x1 p (0 : Fin 1) (1 : Fin 3) rfl).trans (pay13_row X0 p a ha 1)

theorem pay16_row : k0_pay16 (F := Ideal) X0 (ix2 p (0 : Fin 1)) = ((Real.exp (a 2) : ℝ) : EReal) :=
  (slice2_axis1_apply 2 (k0_pay13 (F := Ideal) X0) slices_S2048x3_o0_2_S2048x1 p (0 : Fin 1) (2 : Fin 3) rfl).trans (pay13_row X0 p a ha 2)

end Scales

end Cert.KernelIdeal.Hand

end
-- ==== Proof.RowRot.lean ====
/-
  The six rotation-matrix entries the body keeps as columns (rows 0 and 1 of the matrix), read at one row `p`:
  each is the matching entry of the rotation matrix of `q / ‖q‖`, as a coerced real. All the operations here are
  pointwise, so the value at `(p, 0)` is the scalar expression of the unit quaternion's four entries at `(p, 0)`.
-/
import proofs.«160358_j32280974197216_2_alg».proof.Proof.RowOps

noncomputable section

namespace Cert.KernelIdeal.Hand

open Idealize.ShloMosaic Idealize.ShloMosaic.ValueIdx Cert.KernelIdeal Cert.KernelIdeal.Gen

section Rotation
variable (X1 : FVec Ideal S2048x4 .f32) (p : Fin 2048) (q : Fin 4 → ℝ)
  (hq : ∀ k : Fin 4, X1 (ix2 p k) = ((q k : ℝ) : EReal)) (hpos : 0 < ∑ k : Fin 4, q k * q k)
include hq hpos

local notation "P0" => (ix2 p (0 : Fin 1) : S2048x1.Idx)
local notation "u3" => k0_pay3 (F := Ideal) X1 (ix2 p (0 : Fin 1))
local notation "u4" => k0_pay4 (F := Ideal) X1 (ix2 p (0 : Fin 1))
local notation "u5" => k0_pay5 (F := Ideal) X1 (ix2 p (0 : Fin 1))
local notation "u6" => k0_pay6 (F := Ideal) X1 (ix2 p (0 : Fin 1))
local notation "two" => Ideal.ofBits FTy.f32 0x40000000#32
local notation "one" => Ideal.ofBits FTy.f32 0x3F800000#32

/-- `1 − 2 (y² + z²)`. -/
theorem pay7_row : k0_pay7 (F := Ideal) X1 (ix2 p (0 : Fin 1)) = ((Cert.Spec.rot q 0 0 : ℝ) : EReal) := by
  show one - two * (u4 * u4 + u5 * u5) = _
  rw [pay4_row X1 p q hq hpos, pay5_row X1 p q hq hpos, ofBits_one_f32', ofBits_two_f32]
  simp only [← EReal.coe_mul, ← EReal.coe_add, ← EReal.coe_sub]
  rfl

/-- `2 (x y − w z)`. -/
theorem pay8_row : k0_pay8 (F := Ideal) X1 (ix2 p (0 : Fin 1)) = ((Cert.Spec.rot q 0 1 : ℝ) : EReal) := by
  show two * (u3 * u4 - u6 * u5) = _
  rw [pay3_row X1 p q hq hpos, pay4_row X1 p q hq hpos, pay5_row X1 p q hq hpos, pay6_row X1 p q hq hpos, ofBits_two_f32]
  simp only [← EReal.coe_mul, ← EReal.coe_add, ← EReal.coe_sub]
  rfl

/-- `2 (x z + w y)`. -/
theorem pay9_row : k0_pay9 (F := Ideal) X1 (ix2 p (0 : Fin 1)) = ((Cert.Spec.rot q 0 2 : ℝ) : EReal) := by
  show two * (u3 * u5 + u6 * u4) = _
  rw [pay3_row X1 p q hq hpos, pay4_row X1 p q hq hpos, pay5_row X1 p q hq hpos, pay6_row X1 p q hq hpos, ofBits_two_f32]
  simp only [← EReal.coe_mul, ← EReal.coe_add, ← EReal.coe_sub]
  rfl

/-- `2 (x y + w z)`. -/
theorem pay10_row : k0_pay10 (F := Ideal) X1 (ix2 p (0 : Fin 1)) = ((Cert.Spec.rot q 1 0 : ℝ) : EReal) := by
  show two * (u3 * u4 + u6 * u5) = _
  rw [pay3_row X1 p q hq hpos, pay4_row X1 p q hq hpos, pay5_row X1 p q hq hpos, pay6_row X1 p q hq hpos, ofBits_two_f32]
  simp only [← EReal.coe_mul, ← EReal.coe_add, ← EReal.coe_sub]
  rfl

/-- `1 − 2 (x² + z²)`. -/
theorem pay11_row : k0_pay11 (F := Ideal) X1 (ix2 p (0 : Fin 1)) = ((Cert.Spec.rot q 1 1 : ℝ) : EReal) := by
  show one - two * (u3 * u3 + u5 * u5) = _
  rw [pay3_row X1 p q hq hpos, pay5_row X1 p q hq hpos, ofBits_one_f32', ofBits_two_f32]
  simp only [← EReal.coe_mul, ← EReal.coe_add, ← EReal.coe_sub]
  rfl

/-- `2 (y z − w x)`. -/
theorem pay12_row : k0_pay12 (F := Ideal) X1 (ix2 p (0 : Fin 1)) = ((Cert.Spec.rot q 1 2 : ℝ) : EReal) := by
  show two * (u4 * u5 - u6 * u3) = _
  rw [pay3_row X1 p q hq hpos, pay4_row X1 p q hq hpos, pay5_row X1 p q hq hpos, pay6_row X1 p q hq hpos, ofBits_two_f32]
  simp only [← EReal.coe_mul, ← EReal.coe_add, ← EReal.coe_sub]
  rfl

end Rotation

end Cert.KernelIdeal.Hand

end
-- ==== Proof.RowValue.lean ====
/-
  The stored [2048, 9] block read at row `p`, column `3 i + j`: entry `(i, j)` of `(R S) (R S)ᵀ + ε I` for the row's
  quaternion and log-scales.

  First the products `l i k = R i k · exp aₖ` and the six distinct entries
  `c i j = (l i 0 · l j 0 + l i 1 · l j 1) + l i 2 · l j 2` at row `p`, as coerced reals: `c i j` is `cov a q i j` (every
  operation there is pointwise). Then the nine columns concatenated along axis 1: column `c` of the result at row `p` is
  the `c`-th piece at `(p, 0)`. The body computes the six entries with `i ≤ j` and stores each off-diagonal one twice.
-/
import proofs.«160358_j32280974197216_2_alg».proof.Proof.RowRot

noncomputable section

namespace Cert.KernelIdeal.Hand

open Idealize.ShloMosaic Idealize.ShloMosaic.ValueIdx Cert.KernelIdeal Cert.KernelIdeal.Gen

/-- Entry `(i, k)` of `R S`: the rotation entry times the scale. -/
def lrs (a : Fin 3 → ℝ) (q : Fin 4 → ℝ) (i k : Fin 3) : ℝ := Cert.Spec.rot q i k * Real.exp (a k)

/-- The entry of `(R S) (R S)ᵀ` written out, associated as the sum over three indices is. -/
theorem cov_eq (a : Fin 3 → ℝ) (q : Fin 4 → ℝ) (i j : Fin 3) :
    Cert.Spec.cov a q i j = lrs a q i 0 * lrs a q j 0 + lrs a q i 1 * lrs a q j 1 + lrs a q i 2 * lrs a q j 2 := by
  rw [Cert.Spec.cov, Fin.sum_univ_three]; rfl

section Row
variable (X0 : FVec Ideal S2048x3 .f32) (X1 : FVec Ideal S2048x4 .f32) (p : Fin 2048) (a : Fin 3 → ℝ) (q : Fin 4 → ℝ)
  (ha : ∀ k : Fin 3, X0 (ix2 p k) = ((a k : ℝ) : EReal)) (hq : ∀ k : Fin 4, X1 (ix2 p k) = ((q k : ℝ) : EReal))
  (hpos : 0 < ∑ k : Fin 4, q k * q k)

local notation "P0" => (ix2 p (0 : Fin 1) : S2048x1.Idx)
local notation "u3" => k0_pay3 (F := Ideal) X1
local notation "u4" => k0_pay4 (F := Ideal) X1
local notation "u5" => k0_pay5 (F := Ideal) X1
local notation "u6" => k0_pay6 (F := Ideal) X1
local notation "r00" => k0_pay7 (F := Ideal) X1
local notation "r01" => k0_pay8 (F := Ideal) X1
local notation "r02" => k0_pay9 (F := Ideal) X1
local notation "r10" => k0_pay10 (F := Ideal) X1
local notation "r11" => k0_pay11 (F := Ideal) X1
local notation "r12" => k0_pay12 (F := Ideal) X1
local notation "e0" => k0_pay14 (F := Ideal) X0 (ix2 p (0 : Fin 1))
local notation "e1" => k0_pay15 (F := Ideal) X0 (ix2 p (0 : Fin 1))
local notation "e2" => k0_pay16 (F := Ideal) X0 (ix2 p (0 : Fin 1))
local notation "two" => Ideal.ofBits FTy.f32 0x40000000#32
local notation "one" => Ideal.ofBits FTy.f32 0x3F800000#32
local notation "l00" => k0_pay17 (F := Ideal) X0 r00 (ix2 p (0 : Fin 1))
local notation "l01" => k0_pay18 (F := Ideal) X0 r01 (ix2 p (0 : Fin 1))
local notation "l02" => k0_pay19 (F := Ideal) X0 r02 (ix2 p (0 : Fin 1))
local notation "l10" => k0_pay20 (F := Ideal) X0 r10 (ix2 p (0 : Fin 1))
local notation "l11" => k0_pay21 (F := Ideal) X0 r11 (ix2 p (0 : Fin 1))
local notation "l12" => k0_pay22 (F := Ideal) X0 r12 (ix2 p (0 : Fin 1))
local notation "l20" => k0_pay23 (F := Ideal) X0 u3 u4 u5 u6 (ix2 p (0 : Fin 1))
local notation "l21" => k0_pay24 (F := Ideal) X0 u3 u4 u5 u6 (ix2 p (0 : Fin 1))
local notation "l22" => k0_pay25 (F := Ideal) X0 u3 u4 (ix2 p (0 : Fin 1))

include ha hq hpos

/-! The nine products `l i k`. -/

theorem l00_row : l00 = ((lrs a q 0 0 : ℝ) : EReal) := by
  show r00 P0 * e0 = _
  rw [pay7_row X1 p q hq hpos, pay14_row X0 p a ha, ← EReal.coe_mul]; rfl

theorem l01_row : l01 = ((lrs a q 0 1 : ℝ) : EReal) := by
  show r01 P0 * e1 = _
  rw [pay8_row X1 p q hq hpos, pay15_row X0 p a ha, ← EReal.coe_mul]; rfl

theorem l02_row : l02 = ((lrs a q 0 2 : ℝ) : EReal) := by
  show r02 P0 * e2 = _
  rw [pay9_row X1 p q hq hpos, pay16_row X0 p a ha, ← EReal.coe_mul]; rfl

theorem l10_row : l10 = ((lrs a q 1 0 : ℝ) : EReal) := by
  show r10 P0 * e0 = _
  rw [pay10_row X1 p q hq hpos, pay14_row X0 p a ha, ← EReal.coe_mul]; rfl

theorem l11_row : l11 = ((lrs a q 1 1 : ℝ) : EReal) := by
  show r11 P0 * e1 = _
  rw [pay11_row X1 p q hq hpos, pay15_row X0 p a ha, ← EReal.coe_mul]; rfl

theorem l12_row : l12 = ((lrs a q 1 2 : ℝ) : EReal) := by
  show r12 P0 * e2 = _
  rw [pay12_row X1 p q hq hpos, pay16_row X0 p a ha, ← EReal.coe_mul]; rfl

/-- `2 (x z − w y) · exp a₀`. -/
theorem l20_row : l20 = ((lrs a q 2 0 : ℝ) : EReal) := by
  show two * (u3 P0 * u5 P0 - u6 P0 * u4 P0) * e0 = _
  rw [pay3_row X1 p q hq hpos, pay4_row X1 p q hq hpos, pay5_row X1 p q hq hpos, pay6_row X1 p q hq hpos,
    pay14_row X0 p a ha, ofBits_two_f32]
  simp only [← EReal.coe_mul, ← EReal.coe_add, ← EReal.coe_sub]
  rfl

/-- `2 (y z + w x) · exp a₁`. -/
theorem l21_row : l21 = ((lrs a q 2 1 : ℝ) : EReal) := by
  show two * (u4 P0 * u5 P0 + u6 P0 * u3 P0) * e1 = _
  rw [pay3_row X1 p q hq hpos, pay4_row X1 p q hq hpos, pay5_row X1 p q hq hpos, pay6_row X1 p q hq hpos,
    pay15_row X0 p a ha, ofBits_two_f32]
  simp only [← EReal.coe_mul, ← EReal.coe_add, ← EReal.coe_sub]
  rfl

/-- `(1 − 2 (x² + y²)) · exp a₂`. -/
theorem l22_row : l22 = ((lrs a q 2 2 : ℝ) : EReal) := by
  show (one - two * (u3 P0 * u3 P0 + u4 P0 * u4 P0)) * e2 = _
  rw [pay3_row X1 p q hq hpos, pay4_row X1 p q hq hpos, pay16_row X0 p a ha, ofBits_one_f32', ofBits_two_f32]
  simp only [← EReal.coe_mul, ← EReal.coe_add, ← EReal.coe_sub]
  rfl

/-! The six distinct entries. -/

theorem c00_row : k0_pay26 (F := Ideal) X0 r00 r01 r02 P0 = ((Cert.Spec.cov a q 0 0 : ℝ) : EReal) := by
  show (l00 * l00 + l01 * l01) + l02 * l02 = _
  rw [l00_row X0 X1 p a q ha hq hpos, l01_row X0 X1 p a q ha hq hpos, l02_row X0 X1 p a q ha hq hpos, cov_eq]
  simp only [EReal.coe_mul, EReal.coe_add]

theorem c01_row : k0_pay27 (F := Ideal) X0 r00 r01 r02 r10 r11 r12 P0 = ((Cert.Spec.cov a q 0 1 : ℝ) : EReal) := by
  show (l00 * l10 + l01 * l11) + l02 * l12 = _
  rw [l00_row X0 X1 p a q ha hq hpos, l01_row X0 X1 p a q ha hq hpos, l02_row X0 X1 p a q ha hq hpos,
    l10_row X0 X1 p a q ha hq hpos, l11_row X0 X1 p a q ha hq hpos, l12_row X0 X1 p a q ha hq hpos, cov_eq]
  simp only [EReal.coe_mul, EReal.coe_add]

theorem c02_row : k0_pay28 (F := Ideal) X0 u3 u4 u5 u6 r00 r01 r02 P0 = ((Cert.Spec.cov a q 0 2 : ℝ) : EReal) := by
  show (l00 * l20 + l01 * l21) + l02 * l22 = _
  rw [l00_row X0 X1 p a q ha hq hpos, l01_row X0 X1 p a q ha hq hpos, l02_row X0 X1 p a q ha hq hpos,
    l20_row X0 X1 p a q ha hq hpos, l21_row X0 X1 p a q ha hq hpos, l22_row X0 X1 p a q ha hq hpos, cov_eq]
  simp only [EReal.coe_mul, EReal.coe_add]

theorem c11_row : k0_pay29 (F := Ideal) X0 r10 r11 r12 P0 = ((Cert.Spec.cov a q 1 1 : ℝ) : EReal) := by
  show (l10 * l10 + l11 * l11) + l12 * l12 = _
  rw [l10_row X0 X1 p a q ha hq hpos, l11_row X0 X1 p a q ha hq hpos, l12_row X0 X1 p a q ha hq hpos, cov_eq]
  simp only [EReal.coe_mul, EReal.coe_add]

theorem c12_row : k0_pay30 (F := Ideal) X0 u3 u4 u5 u6 r10 r11 r12 P0 = ((Cert.Spec.cov a q 1 2 : ℝ) : EReal) := by
  show (l10 * l20 + l11 * l21) + l12 * l22 = _
  rw [l10_row X0 X1 p a q ha hq hpos, l11_row X0 X1 p a q ha hq hpos, l12_row X0 X1 p a q ha hq hpos,
    l20_row X0 X1 p a q ha hq hpos, l21_row X0 X1 p a q ha hq hpos, l22_row X0 X1 p a q ha hq hpos, cov_eq]
  simp only [EReal.coe_mul, EReal.coe_add]

/-- The last diagonal entry is assembled where the block is stored: `(l20² + l21²) + l22²`. -/
theorem c22_row : (k0_pay31 (F := Ideal) X0 u3 u4 u5 u6 P0 + l21 * l21) + l22 * l22 = ((Cert.Spec.cov a q 2 2 : ℝ) : EReal) := by
  show (l20 * l20 + l21 * l21) + l22 * l22 = _
  rw [l20_row X0 X1 p a q ha hq hpos, l21_row X0 X1 p a q ha hq hpos, l22_row X0 X1 p a q ha hq hpos, cov_eq]
  simp only [EReal.coe_mul, EReal.coe_add]

end Row

/-- Nine [2048, 1] columns concatenated along axis 1, read at `(p, c)`: column `c` at `(p, 0)`. -/
theorem concat9_row {α : Type} (c0 c1 c2 c3 c4 c5 c6 c7 c8 : S2048x1.Idx → α)
    (h : Shape.Concatenates (([⟨S2048x1, c0⟩, ⟨S2048x1, c1⟩, ⟨S2048x1, c2⟩, ⟨S2048x1, c3⟩, ⟨S2048x1, c4⟩, ⟨S2048x1, c5⟩,
      ⟨S2048x1, c6⟩, ⟨S2048x1, c7⟩, ⟨S2048x1, c8⟩] : List ((s : Shape) × (s.Idx → α))).map (·.1)) S2048x9 1)
    (p : Fin 2048) (c : Fin 9) :
    concatenate S2048x9 1 [⟨S2048x1, c0⟩, ⟨S2048x1, c1⟩, ⟨S2048x1, c2⟩, ⟨S2048x1, c3⟩, ⟨S2048x1, c4⟩, ⟨S2048x1, c5⟩,
      ⟨S2048x1, c6⟩, ⟨S2048x1, c7⟩, ⟨S2048x1, c8⟩] h (ix2 p c)
      = (![c0, c1, c2, c3, c4, c5, c6, c7, c8] c) (ix2 p (0 : Fin 1)) := by
  refine concatenate_apply_piece (1 : Fin S2048x9.rank) _ h (ix2 p c) c.val (by simpa using c.isLt) S2048x1
    (![c0, c1, c2, c3, c4, c5, c6, c7, c8] c) ?_ rfl c.val ?_ (ix2 p (0 : Fin 1)) ?_ ?_
  · fin_cases c <;> rfl
  · fin_cases c <;> rfl
  · intro b hb
    match b with
    | ⟨0, _⟩ => rfl
    | ⟨1, _⟩ => exact absurd (Fin.ext rfl) hb
  · show c.val + 0 = c.val
    rfl

/-- The stored block at `(p, c)`, from the eight columns it is assembled from at `(p, 0)`. -/
theorem pay1_row (v74 v75 v80 v85 v90 v95 v100 v101 : FVec Ideal S2048x1 .f32) (p : Fin 2048) (c : Fin 9) :
    k0_pay1 (F := Ideal) v74 v75 v80 v85 v90 v95 v100 v101 (ix2 p c)
      = ![v80 (ix2 p (0 : Fin 1)) + Cert.Spec.epsE, v85 (ix2 p (0 : Fin 1)), v90 (ix2 p (0 : Fin 1)), v85 (ix2 p (0 : Fin 1)),
          v95 (ix2 p (0 : Fin 1)) + Cert.Spec.epsE, v100 (ix2 p (0 : Fin 1)), v90 (ix2 p (0 : Fin 1)), v100 (ix2 p (0 : Fin 1)),
          ((v101 (ix2 p (0 : Fin 1)) + v74 (ix2 p (0 : Fin 1)) * v74 (ix2 p (0 : Fin 1)))
            + v75 (ix2 p (0 : Fin 1)) * v75 (ix2 p (0 : Fin 1))) + Cert.Spec.epsE] c := by
  refine (concat9_row
    (addf v80 (broadcast S2048x1 (Scalar.ofBits (F := Ideal) .f32 0x33D6BF95#32))) v85 v90 v85
    (addf v95 (broadcast S2048x1 (Scalar.ofBits (F := Ideal) .f32 0x33D6BF95#32))) v100 v90 v100
    (addf (addf (addf v101 (mulf v74 v74)) (mulf v75 v75)) (broadcast S2048x1 (Scalar.ofBits (F := Ideal) .f32 0x33D6BF95#32)))
    concatenates_S2048x1_S2048x1_S2048x1_S2048x1_S2048x1_S2048x1_S2048x1_S2048x1_S2048x1_S2048x9_d1 p c).trans ?_
  fin_cases c <;> rfl

/-- On the diagonal `ε` is added. -/
theorem entry_diag (a : Fin 3 → ℝ) (q : Fin 4 → ℝ) (i : Fin 3) :
    Cert.Spec.entry a q i i = ((Cert.Spec.cov a q i i : ℝ) : EReal) + Cert.Spec.epsE := by
  rw [Cert.Spec.entry, if_pos rfl]

/-- Off the diagonal nothing is added. -/
theorem entry_off (a : Fin 3 → ℝ) (q : Fin 4 → ℝ) (i j : Fin 3) (h : i ≠ j) :
    Cert.Spec.entry a q i j = ((Cert.Spec.cov a q i j : ℝ) : EReal) := by
  rw [Cert.Spec.entry, if_neg h, add_zero]

/-- `(R S) (R S)ᵀ` is symmetric. -/
theorem cov_symm (a : Fin 3 → ℝ) (q : Fin 4 → ℝ) (i j : Fin 3) : Cert.Spec.cov a q i j = Cert.Spec.cov a q j i := by
  rw [cov_eq, cov_eq]; ring

/-- **The stored block at row `p`, column `3 i + j`, is entry `(i, j)` for that row's reals.** Only row `p` of the
    two loaded blocks is constrained: the other rows may hold anything. -/
theorem bodyVal_row (X0 : Vec Ideal Cert.KernelIdeal.S2048x3 .f32) (X1 : Vec Ideal Cert.KernelIdeal.S2048x4 .f32) (p : Fin 2048)
    (a : Fin 3 → ℝ) (q : Fin 4 → ℝ)
    (ha : ∀ k : Fin 3, X0 (ValueIdx.ix2 p k) = ((a k : ℝ) : EReal)) (hq : ∀ k : Fin 4, X1 (ValueIdx.ix2 p k) = ((q k : ℝ) : EReal))
    (hpos : 0 < ∑ k : Fin 4, q k * q k) (i j : Fin 3) :
    bodyVal (F := Ideal) X0 X1 (ValueIdx.ix2 p (⟨3 * i.val + j.val, by omega⟩ : Fin 9)) = Cert.Spec.entry a q i j := by
  refine (pay1_row _ _ _ _ _ _ _ _ p _).trans ?_
  fin_cases i <;> fin_cases j
  · exact (congrArg (· + Cert.Spec.epsE) (c00_row X0 X1 p a q ha hq hpos)).trans (entry_diag a q 0).symm
  · exact (c01_row X0 X1 p a q ha hq hpos).trans (entry_off a q 0 1 (by decide)).symm
  · exact (c02_row X0 X1 p a q ha hq hpos).trans (entry_off a q 0 2 (by decide)).symm
  · exact (c01_row X0 X1 p a q ha hq hpos).trans
      ((congrArg (fun r : ℝ => (r : EReal)) (cov_symm a q 0 1)).trans (entry_off a q 1 0 (by decide)).symm)
  · exact (congrArg (· + Cert.Spec.epsE) (c11_row X0 X1 p a q ha hq hpos)).trans (entry_diag a q 1).symm
  · exact (c12_row X0 X1 p a q ha hq hpos).trans (entry_off a q 1 2 (by decide)).symm
  · exact (c02_row X0 X1 p a q ha hq hpos).trans
      ((congrArg (fun r : ℝ => (r : EReal)) (cov_symm a q 0 2)).trans (entry_off a q 2 0 (by decide)).symm)
  · exact (c12_row X0 X1 p a q ha hq hpos).trans
      ((congrArg (fun r : ℝ => (r : EReal)) (cov_symm a q 1 2)).trans (entry_off a q 2 1 (by decide)).symm)
  · exact (congrArg (· + Cert.Spec.epsE) (c22_row X0 X1 p a q ha hq hpos)).trans (entry_diag a q 2).symm

end Cert.KernelIdeal.Hand

end
-- ==== Proof.RefQuat.lean ====
/-
  The normalized quaternion. Row `n` of the rotation argument is a real quaternion `q n` with nonzero norm; the reference
  divides it by the square root of its sum of squares, and cuts the four columns out: column `k` at `n` is the real
  number `q n k · (1 / ‖q n‖)`.
-/
import proofs.«160358_j32280974197216_2_alg».proof.Proof.ReadPatched
import proofs.«160358_j32280974197216_2_alg».proof.Proof.Spec
import Idealize.ShloMosaic.Lib.IdealHost

noncomputable section

namespace Cert.ReferenceIdeal.RefQuat

open Cert.ReferenceIdeal Cert.ReferenceIdeal.Read Idealize.ShloMosaic Idealize.ShloMosaic.ValueIdx

variable (x1 : (⟨S5000000x4, .f32⟩ : BufTy).Contents (Elt Ideal)) (q : Fin 5000000 → Fin 4 → ℝ)
  (hq : ∀ n k, (x1 (ix2 n k) : EReal) = ((q n k : ℝ) : EReal)) (hpos : ∀ n, 0 < ∑ k : Fin 4, q n k * q n k)

include hq in
/-- The sum of squares of row `n`. -/
theorem sumsq_at (n : Fin 5000000) :
    (val_main_call0_v1 (F := Ideal) x1 (ix1 n) : EReal) = ((∑ k : Fin 4, q n k * q n k : ℝ) : EReal) := by
  have e : ∀ k : Fin 4, idx_main_call0_v1 (ix1 n) k = ix2 n k := fun k =>
    funext fun a => Fin.ext (by match a with | ⟨0, _⟩ => rfl | ⟨1, _⟩ => rfl)
  rw [val_main_call0_v1_apply]
  simp only [Fin.sum_univ_four]
  rw [e 0, e 1, e 2, e 3]
  simp only [val_main_call0_v0_apply, val_main_call0_cst_apply, Ideal.mulf_def, Ideal.ofBits_def,
    Ideal.ofBits_zero_f32, zero_add, hq, ← EReal.coe_mul, ← EReal.coe_add]

include hq hpos in
/-- The norm of row `n`, broadcast along the row. -/
theorem norm_at (n : Fin 5000000) (k : Fin 4) :
    (val_main_v4 (F := Ideal) x1 (ix2 n k) : EReal) = ((Real.sqrt (∑ k : Fin 4, q n k * q n k) : ℝ) : EReal) := by
  have e : idx_main_call0_v2 (idx_main_v4 (ix2 n k)) = ix1 n :=
    funext fun a => Fin.ext (by match a with | ⟨0, _⟩ => rfl)
  rw [val_main_v4_apply, val_main_v3_apply, val_main_call0_v2_apply, e, sumsq_at x1 q hq n,
    Ideal.hostUnary_sqrt_def, Ideal.sqrt_coe, if_neg (not_lt.mpr (hpos n).le)]

include hq hpos in
/-- Entry `(n, k)` of the normalized quaternion. -/
theorem unit_at (n : Fin 5000000) (k : Fin 4) :
    (val_main_v5 (F := Ideal) x1 (ix2 n k) : EReal) = ((q n k * Spec.invNorm (q n) : ℝ) : EReal) := by
  rw [val_main_v5_apply, norm_at x1 q hq hpos n k, hq, Ideal.hostDivf_def,
    Ideal.div_coe (Real.sqrt_pos.mpr (hpos n)).ne', ← EReal.coe_mul, one_div]
  rfl

include hq hpos in
/-- Its first column. -/
theorem x_at (n : Fin 5000000) :
    (val_main_v7 (F := Ideal) x1 (ix1 n) : EReal) = ((q n 0 * Spec.invNorm (q n) : ℝ) : EReal) := by
  have e : idx_main_v6 (idx_main_v7 (ix1 n)) = ix2 n (0 : Fin 4) :=
    funext fun a => Fin.ext (by match a with | ⟨0, _⟩ => exact Nat.div_one _ | ⟨1, _⟩ => rfl)
  rw [val_main_v7_apply, val_main_v6_apply, e, unit_at x1 q hq hpos n 0]

include hq hpos in
/-- Its second column. -/
theorem y_at (n : Fin 5000000) :
    (val_main_v9 (F := Ideal) x1 (ix1 n) : EReal) = ((q n 1 * Spec.invNorm (q n) : ℝ) : EReal) := by
  have e : idx_main_v8 (idx_main_v9 (ix1 n)) = ix2 n (1 : Fin 4) :=
    funext fun a => Fin.ext (by match a with | ⟨0, _⟩ => exact Nat.div_one _ | ⟨1, _⟩ => rfl)
  rw [val_main_v9_apply, val_main_v8_apply, e, unit_at x1 q hq hpos n 1]

include hq hpos in
/-- Its third column. -/
theorem z_at (n : Fin 5000000) :
    (val_main_v11 (F := Ideal) x1 (ix1 n) : EReal) = ((q n 2 * Spec.invNorm (q n) : ℝ) : EReal) := by
  have e : idx_main_v10 (idx_main_v11 (ix1 n)) = ix2 n (2 : Fin 4) :=
    funext fun a => Fin.ext (by match a with | ⟨0, _⟩ => exact Nat.div_one _ | ⟨1, _⟩ => rfl)
  rw [val_main_v11_apply, val_main_v10_apply, e, unit_at x1 q hq hpos n 2]

include hq hpos in
/-- Its fourth column. -/
theorem w_at (n : Fin 5000000) :
    (val_main_v13 (F := Ideal) x1 (ix1 n) : EReal) = ((q n 3 * Spec.invNorm (q n) : ℝ) : EReal) := by
  have e : idx_main_v12 (idx_main_v13 (ix1 n)) = ix2 n (3 : Fin 4) :=
    funext fun a => Fin.ext (by match a with | ⟨0, _⟩ => exact Nat.div_one _ | ⟨1, _⟩ => rfl)
  rw [val_main_v13_apply, val_main_v12_apply, e, unit_at x1 q hq hpos n 3]

end Cert.ReferenceIdeal.RefQuat

end
-- ==== Proof.RefCat.lean ====
/-
  Three arrays laid side by side along axis 1, read at an index: three columns `[N, 1]` make `[N, 3]`, entry `(n, k)`
  being column `k` at `(n, 0)`; three slabs `[N, 1, 3]` make `[N, 3, 3]`, entry `(n, i, j)` being slab `i` at `(n, 0, j)`.
-/
import proofs.«160358_j32280974197216_2_alg».proof.Proof.Gen.ReferenceIdeal
import Idealize.ShloMosaic.Lib.Pipeline.Value
import Idealize.ShloMosaic.Lib.ValueIdx

noncomputable section

namespace Cert.ReferenceIdeal.RefCat

open Cert.ReferenceIdeal Idealize.ShloMosaic Idealize.ShloMosaic.ValueIdx

variable {α : Type}

/-- Column 0 of three columns side by side. -/
theorem cols_0 (y0 y1 y2 : S5000000x1.Idx → α)
    (h : Shape.Concatenates [S5000000x1, S5000000x1, S5000000x1] S5000000x3 1) (n : Fin 5000000) :
    concatenate S5000000x3 1 [⟨S5000000x1, y0⟩, ⟨S5000000x1, y1⟩, ⟨S5000000x1, y2⟩] h (ix2 n (0 : Fin 3))
      = y0 (ix2 n (0 : Fin 1)) :=
  concatenate_apply_piece (t := S5000000x3) 1 [⟨S5000000x1, y0⟩, ⟨S5000000x1, y1⟩, ⟨S5000000x1, y2⟩] h (ix2 n (0 : Fin 3)) 0 (by simp) S5000000x1 y0 rfl rfl 0 rfl
    (ix2 n (0 : Fin 1)) (fun b hb => by
      match b with
      | ⟨0, _⟩ => rfl
      | ⟨1, _⟩ => exact absurd rfl hb) rfl

/-- Column 1 of three columns side by side. -/
theorem cols_1 (y0 y1 y2 : S5000000x1.Idx → α)
    (h : Shape.Concatenates [S5000000x1, S5000000x1, S5000000x1] S5000000x3 1) (n : Fin 5000000) :
    concatenate S5000000x3 1 [⟨S5000000x1, y0⟩, ⟨S5000000x1, y1⟩, ⟨S5000000x1, y2⟩] h (ix2 n (1 : Fin 3))
      = y1 (ix2 n (0 : Fin 1)) :=
  concatenate_apply_piece (t := S5000000x3) 1 [⟨S5000000x1, y0⟩, ⟨S5000000x1, y1⟩, ⟨S5000000x1, y2⟩] h (ix2 n (1 : Fin 3)) 1 (by simp) S5000000x1 y1 rfl rfl 1 rfl
    (ix2 n (0 : Fin 1)) (fun b hb => by
      match b with
      | ⟨0, _⟩ => rfl
      | ⟨1, _⟩ => exact absurd rfl hb) rfl

/-- Column 2 of three columns side by side. -/
theorem cols_2 (y0 y1 y2 : S5000000x1.Idx → α)
    (h : Shape.Concatenates [S5000000x1, S5000000x1, S5000000x1] S5000000x3 1) (n : Fin 5000000) :
    concatenate S5000000x3 1 [⟨S5000000x1, y0⟩, ⟨S5000000x1, y1⟩, ⟨S5000000x1, y2⟩] h (ix2 n (2 : Fin 3))
      = y2 (ix2 n (0 : Fin 1)) :=
  concatenate_apply_piece (t := S5000000x3) 1 [⟨S5000000x1, y0⟩, ⟨S5000000x1, y1⟩, ⟨S5000000x1, y2⟩] h (ix2 n (2 : Fin 3)) 2 (by simp) S5000000x1 y2 rfl rfl 2 rfl
    (ix2 n (0 : Fin 1)) (fun b hb => by
      match b with
      | ⟨0, _⟩ => rfl
      | ⟨1, _⟩ => exact absurd rfl hb) rfl

/-- Slab 0 of three slabs stacked along axis 1. -/
theorem slabs_0 (y0 y1 y2 : S5000000x1x3.Idx → α)
    (h : Shape.Concatenates [S5000000x1x3, S5000000x1x3, S5000000x1x3] S5000000x3x3 1) (n : Fin 5000000) (j : Fin 3) :
    concatenate S5000000x3x3 1 [⟨S5000000x1x3, y0⟩, ⟨S5000000x1x3, y1⟩, ⟨S5000000x1x3, y2⟩] h (ix3 n (0 : Fin 3) j)
      = y0 (ix3 n (0 : Fin 1) j) :=
  concatenate_apply_piece (t := S5000000x3x3) 1 [⟨S5000000x1x3, y0⟩, ⟨S5000000x1x3, y1⟩, ⟨S5000000x1x3, y2⟩] h (ix3 n (0 : Fin 3) j) 0 (by simp) S5000000x1x3 y0 rfl rfl 0 rfl
    (ix3 n (0 : Fin 1) j) (fun b hb => by
      match b with
      | ⟨0, _⟩ => rfl
      | ⟨1, _⟩ => exact absurd rfl hb
      | ⟨2, _⟩ => rfl) rfl

/-- Slab 1 of three slabs stacked along axis 1. -/
theorem slabs_1 (y0 y1 y2 : S5000000x1x3.Idx → α)
    (h : Shape.Concatenates [S5000000x1x3, S5000000x1x3, S5000000x1x3] S5000000x3x3 1) (n : Fin 5000000) (j : Fin 3) :
    concatenate S5000000x3x3 1 [⟨S5000000x1x3, y0⟩, ⟨S5000000x1x3, y1⟩, ⟨S5000000x1x3, y2⟩] h (ix3 n (1 : Fin 3) j)
      = y1 (ix3 n (0 : Fin 1) j) :=
  concatenate_apply_piece (t := S5000000x3x3) 1 [⟨S5000000x1x3, y0⟩, ⟨S5000000x1x3, y1⟩, ⟨S5000000x1x3, y2⟩] h (ix3 n (1 : Fin 3) j) 1 (by simp) S5000000x1x3 y1 rfl rfl 1 rfl
    (ix3 n (0 : Fin 1) j) (fun b hb => by
      match b with
      | ⟨0, _⟩ => rfl
      | ⟨1, _⟩ => exact absurd rfl hb
      | ⟨2, _⟩ => rfl) rfl

/-- Slab 2 of three slabs stacked along axis 1. -/
theorem slabs_2 (y0 y1 y2 : S5000000x1x3.Idx → α)
    (h : Shape.Concatenates [S5000000x1x3, S5000000x1x3, S5000000x1x3] S5000000x3x3 1) (n : Fin 5000000) (j : Fin 3) :
    concatenate S5000000x3x3 1 [⟨S5000000x1x3, y0⟩, ⟨S5000000x1x3, y1⟩, ⟨S5000000x1x3, y2⟩] h (ix3 n (2 : Fin 3) j)
      = y2 (ix3 n (0 : Fin 1) j) :=
  concatenate_apply_piece (t := S5000000x3x3) 1 [⟨S5000000x1x3, y0⟩, ⟨S5000000x1x3, y1⟩, ⟨S5000000x1x3, y2⟩] h (ix3 n (2 : Fin 3) j) 2 (by simp) S5000000x1x3 y2 rfl rfl 2 rfl
    (ix3 n (0 : Fin 1) j) (fun b hb => by
      match b with
      | ⟨0, _⟩ => rfl
      | ⟨1, _⟩ => exact absurd rfl hb
      | ⟨2, _⟩ => rfl) rfl

end Cert.ReferenceIdeal.RefCat

end
-- ==== Proof.RefConst.lean ====
/-
  The float words the reference carries, as the real numbers they denote (1, 2, one half), and the identity matrix it
  builds from two coordinate tables: the 0/1 value of "row coordinate equals column coordinate".
-/
import Idealize.ShloMosaic.Lib.IdealHost

noncomputable section

namespace Cert.ReferenceIdeal.RefConst

open Idealize.ShloMosaic

/-- The f32 word of 1.0 is the real number one. -/
theorem ofBits_one : Ideal.ofBits .f32 0x3F800000#32 = ((1 : ℝ) : EReal) := by
  rw [Ideal.ofBits_one_f32, EReal.coe_one]

/-- The f32 word of 2.0 is the real number two. -/
theorem ofBits_two : Ideal.ofBits .f32 0x40000000#32 = ((2 : ℝ) : EReal) := by
  simp [Ideal.ofBits, Ideal.ieee, -EReal.coe_mul]; norm_num

/-- The f32 word of 0.5 is the real number one half. -/
theorem ofBits_half : Ideal.ofBits .f32 0x3F000000#32 = (((1 : ℝ) / 2 : ℝ) : EReal) := by
  simp [Ideal.ofBits, Ideal.ieee, -EReal.coe_mul]; norm_num

/-- The bit "row coordinate + 0 equals column coordinate", over three rows and columns, read as a number. -/
theorem eye_bit (i j : Fin 3) :
    (IntOp.cmpi .eq (IntOp.addi (BitVec.ofNat 32 i.val) 0#32) (BitVec.ofNat 32 j.val)).toNat = if i = j then 1 else 0 := by
  revert i j; decide

/-- The same bit converted to a float: one on the diagonal, zero off it. -/
theorem eye_val (i j : Fin 3) :
    FloatOps.uitofp (F := Ideal) .f32 (IntOp.cmpi .eq (IntOp.addi (BitVec.ofNat 32 i.val) 0#32) (BitVec.ofNat 32 j.val))
      = if i = j then (1 : EReal) else 0 := by
  show (((IntOp.cmpi .eq (IntOp.addi (BitVec.ofNat 32 i.val) 0#32) (BitVec.ofNat 32 j.val)).toNat : ℝ) : EReal) = _
  rw [eye_bit]
  split
  · simp
  · simp

end Cert.ReferenceIdeal.RefConst

end
-- ==== Proof.RefRot.lean ====
/-
  The rotation matrix of the normalized quaternion, entry by entry. With `(x, y, z, w) = q n / ‖q n‖` the reference forms
  the nine polynomials `1 − 2(y² + z²)`, `2(xy − wz)`, … as columns, lays each row's three columns side by side and
  stacks the three rows: entry `(n, i, k)` of the result is `rot (q n) i k`.
-/
import proofs.«160358_j32280974197216_2_alg».proof.Proof.RefQuat
import proofs.«160358_j32280974197216_2_alg».proof.Proof.RefCat
import proofs.«160358_j32280974197216_2_alg».proof.Proof.RefConst

noncomputable section

namespace Cert.ReferenceIdeal.RefRot

open Cert.ReferenceIdeal Cert.ReferenceIdeal.Read Idealize.ShloMosaic Idealize.ShloMosaic.ValueIdx
open Cert.ReferenceIdeal.RefQuat Cert.ReferenceIdeal.RefConst

variable (x1 : (⟨S5000000x4, .f32⟩ : BufTy).Contents (Elt Ideal)) (q : Fin 5000000 → Fin 4 → ℝ)
  (hq : ∀ n k, (x1 (ix2 n k) : EReal) = ((q n k : ℝ) : EReal)) (hpos : ∀ n, 0 < ∑ k : Fin 4, q n k * q n k)

/-! ### The nine polynomials, each as a column `[N, 1]` -/

include hq hpos in
/-- `1 − 2(y² + z²)`. -/
theorem c00 (n : Fin 5000000) :
    (val_main_v31 (F := Ideal) x1 (ix2 n (0 : Fin 1)) : EReal) = ((Spec.rot (q n) 0 0 : ℝ) : EReal) := by
  have e : idx_main_v31 (ix2 n (0 : Fin 1)) = ix1 n := funext fun a => Fin.ext (by match a with | ⟨0, _⟩ => rfl)
  rw [val_main_v31_apply, e, val_main_v20_apply, val_main_v19_apply, val_main_cst_1_apply, val_main_v18_apply, val_main_v17_apply, val_main_cst_0_apply, val_main_v16_apply, val_main_v14_apply, val_main_v15_apply,
    y_at x1 q hq hpos n, z_at x1 q hq hpos n]
  simp only [Ideal.subf_def, Ideal.mulf_def, Ideal.addf_def, Ideal.ofBits_def, ofBits_one, ofBits_two,
    ← EReal.coe_mul, ← EReal.coe_add, ← EReal.coe_sub]
  rfl

include hq hpos in
/-- `2(xy − wz)`. -/
theorem c01 (n : Fin 5000000) :
    (val_main_v32 (F := Ideal) x1 (ix2 n (0 : Fin 1)) : EReal) = ((Spec.rot (q n) 0 1 : ℝ) : EReal) := by
  have e : idx_main_v32 (ix2 n (0 : Fin 1)) = ix1 n := funext fun a => Fin.ext (by match a with | ⟨0, _⟩ => rfl)
  rw [val_main_v32_apply, e, val_main_v25_apply, val_main_v24_apply, val_main_cst_2_apply, val_main_v23_apply, val_main_v21_apply, val_main_v22_apply,
    x_at x1 q hq hpos n, y_at x1 q hq hpos n, w_at x1 q hq hpos n, z_at x1 q hq hpos n]
  simp only [Ideal.subf_def, Ideal.mulf_def, Ideal.addf_def, Ideal.ofBits_def, ofBits_one, ofBits_two,
    ← EReal.coe_mul, ← EReal.coe_add, ← EReal.coe_sub]
  rfl

include hq hpos in
/-- `2(xz + wy)`. -/
theorem c02 (n : Fin 5000000) :
    (val_main_v33 (F := Ideal) x1 (ix2 n (0 : Fin 1)) : EReal) = ((Spec.rot (q n) 0 2 : ℝ) : EReal) := by
  have e : idx_main_v33 (ix2 n (0 : Fin 1)) = ix1 n := funext fun a => Fin.ext (by match a with | ⟨0, _⟩ => rfl)
  rw [val_main_v33_apply, e, val_main_v30_apply, val_main_v29_apply, val_main_cst_3_apply, val_main_v28_apply, val_main_v26_apply, val_main_v27_apply,
    x_at x1 q hq hpos n, z_at x1 q hq hpos n, w_at x1 q hq hpos n, y_at x1 q hq hpos n]
  simp only [Ideal.subf_def, Ideal.mulf_def, Ideal.addf_def, Ideal.ofBits_def, ofBits_one, ofBits_two,
    ← EReal.coe_mul, ← EReal.coe_add, ← EReal.coe_sub]
  rfl

include hq hpos in
/-- `2(xy + wz)`. -/
theorem c10 (n : Fin 5000000) :
    (val_main_v52 (F := Ideal) x1 (ix2 n (0 : Fin 1)) : EReal) = ((Spec.rot (q n) 1 0 : ℝ) : EReal) := by
  have e : idx_main_v52 (ix2 n (0 : Fin 1)) = ix1 n := funext fun a => Fin.ext (by match a with | ⟨0, _⟩ => rfl)
  rw [val_main_v52_apply, e, val_main_v39_apply, val_main_v38_apply, val_main_cst_4_apply, val_main_v37_apply, val_main_v35_apply, val_main_v36_apply,
    x_at x1 q hq hpos n, y_at x1 q hq hpos n, w_at x1 q hq hpos n, z_at x1 q hq hpos n]
  simp only [Ideal.subf_def, Ideal.mulf_def, Ideal.addf_def, Ideal.ofBits_def, ofBits_one, ofBits_two,
    ← EReal.coe_mul, ← EReal.coe_add, ← EReal.coe_sub]
  rfl

include hq hpos in
/-- `1 − 2(x² + z²)`. -/
theorem c11 (n : Fin 5000000) :
    (val_main_v53 (F := Ideal) x1 (ix2 n (0 : Fin 1)) : EReal) = ((Spec.rot (q n) 1 1 : ℝ) : EReal) := by
  have e : idx_main_v53 (ix2 n (0 : Fin 1)) = ix1 n := funext fun a => Fin.ext (by match a with | ⟨0, _⟩ => rfl)
  rw [val_main_v53_apply, e, val_main_v46_apply, val_main_v45_apply, val_main_cst_6_apply, val_main_v44_apply, val_main_v43_apply, val_main_cst_5_apply, val_main_v42_apply, val_main_v40_apply, val_main_v41_apply,
    x_at x1 q hq hpos n, z_at x1 q hq hpos n]
  simp only [Ideal.subf_def, Ideal.mulf_def, Ideal.addf_def, Ideal.ofBits_def, ofBits_one, ofBits_two,
    ← EReal.coe_mul, ← EReal.coe_add, ← EReal.coe_sub]
  rfl

include hq hpos in
/-- `2(yz − wx)`. -/
theorem c12 (n : Fin 5000000) :
    (val_main_v54 (F := Ideal) x1 (ix2 n (0 : Fin 1)) : EReal) = ((Spec.rot (q n) 1 2 : ℝ) : EReal) := by
  have e : idx_main_v54 (ix2 n (0 : Fin 1)) = ix1 n := funext fun a => Fin.ext (by match a with | ⟨0, _⟩ => rfl)
  rw [val_main_v54_apply, e, val_main_v51_apply, val_main_v50_apply, val_main_cst_7_apply, val_main_v49_apply, val_main_v47_apply, val_main_v48_apply,
    y_at x1 q hq hpos n, z_at x1 q hq hpos n, w_at x1 q hq hpos n, x_at x1 q hq hpos n]
  simp only [Ideal.subf_def, Ideal.mulf_def, Ideal.addf_def, Ideal.ofBits_def, ofBits_one, ofBits_two,
    ← EReal.coe_mul, ← EReal.coe_add, ← EReal.coe_sub]
  rfl

include hq hpos in
/-- `2(xz − wy)`. -/
theorem c20 (n : Fin 5000000) :
    (val_main_v73 (F := Ideal) x1 (ix2 n (0 : Fin 1)) : EReal) = ((Spec.rot (q n) 2 0 : ℝ) : EReal) := by
  have e : idx_main_v73 (ix2 n (0 : Fin 1)) = ix1 n := funext fun a => Fin.ext (by match a with | ⟨0, _⟩ => rfl)
  rw [val_main_v73_apply, e, val_main_v60_apply, val_main_v59_apply, val_main_cst_8_apply, val_main_v58_apply, val_main_v56_apply, val_main_v57_apply,
    x_at x1 q hq hpos n, z_at x1 q hq hpos n, w_at x1 q hq hpos n, y_at x1 q hq hpos n]
  simp only [Ideal.subf_def, Ideal.mulf_def, Ideal.addf_def, Ideal.ofBits_def, ofBits_one, ofBits_two,
    ← EReal.coe_mul, ← EReal.coe_add, ← EReal.coe_sub]
  rfl

include hq hpos in
/-- `2(yz + wx)`. -/
theorem c21 (n : Fin 5000000) :
    (val_main_v74 (F := Ideal) x1 (ix2 n (0 : Fin 1)) : EReal) = ((Spec.rot (q n) 2 1 : ℝ) : EReal) := by
  have e : idx_main_v74 (ix2 n (0 : Fin 1)) = ix1 n := funext fun a => Fin.ext (by match a with | ⟨0, _⟩ => rfl)
  rw [val_main_v74_apply, e, val_main_v65_apply, val_main_v64_apply, val_main_cst_9_apply, val_main_v63_apply, val_main_v61_apply, val_main_v62_apply,
    y_at x1 q hq hpos n, z_at x1 q hq hpos n, w_at x1 q hq hpos n, x_at x1 q hq hpos n]
  simp only [Ideal.subf_def, Ideal.mulf_def, Ideal.addf_def, Ideal.ofBits_def, ofBits_one, ofBits_two,
    ← EReal.coe_mul, ← EReal.coe_add, ← EReal.coe_sub]
  rfl

include hq hpos in
/-- `1 − 2(x² + y²)`. -/
theorem c22 (n : Fin 5000000) :
    (val_main_v75 (F := Ideal) x1 (ix2 n (0 : Fin 1)) : EReal) = ((Spec.rot (q n) 2 2 : ℝ) : EReal) := by
  have e : idx_main_v75 (ix2 n (0 : Fin 1)) = ix1 n := funext fun a => Fin.ext (by match a with | ⟨0, _⟩ => rfl)
  rw [val_main_v75_apply, e, val_main_v72_apply, val_main_v71_apply, val_main_cst_11_apply, val_main_v70_apply, val_main_v69_apply, val_main_cst_10_apply, val_main_v68_apply, val_main_v66_apply, val_main_v67_apply,
    x_at x1 q hq hpos n, y_at x1 q hq hpos n]
  simp only [Ideal.subf_def, Ideal.mulf_def, Ideal.addf_def, Ideal.ofBits_def, ofBits_one, ofBits_two,
    ← EReal.coe_mul, ← EReal.coe_add, ← EReal.coe_sub]
  rfl

/-! ### The three rows `[N, 3]` -/

include hq hpos in
/-- Row 0 of the rotation matrix. -/
theorem row0_at (n : Fin 5000000) (k : Fin 3) :
    (val_main_v34 (F := Ideal) x1 (ix2 n k) : EReal) = ((Spec.rot (q n) 0 k : ℝ) : EReal) := by
  unfold val_main_v34
  match k with
  | ⟨0, _⟩ => exact (RefCat.cols_0 (val_main_v31 (F := Ideal) x1) (val_main_v32 (F := Ideal) x1) (val_main_v33 (F := Ideal) x1) _ n).trans (c00 x1 q hq hpos n)
  | ⟨1, _⟩ => exact (RefCat.cols_1 (val_main_v31 (F := Ideal) x1) (val_main_v32 (F := Ideal) x1) (val_main_v33 (F := Ideal) x1) _ n).trans (c01 x1 q hq hpos n)
  | ⟨2, _⟩ => exact (RefCat.cols_2 (val_main_v31 (F := Ideal) x1) (val_main_v32 (F := Ideal) x1) (val_main_v33 (F := Ideal) x1) _ n).trans (c02 x1 q hq hpos n)

include hq hpos in
/-- Row 1 of the rotation matrix. -/
theorem row1_at (n : Fin 5000000) (k : Fin 3) :
    (val_main_v55 (F := Ideal) x1 (ix2 n k) : EReal) = ((Spec.rot (q n) 1 k : ℝ) : EReal) := by
  unfold val_main_v55
  match k with
  | ⟨0, _⟩ => exact (RefCat.cols_0 (val_main_v52 (F := Ideal) x1) (val_main_v53 (F := Ideal) x1) (val_main_v54 (F := Ideal) x1) _ n).trans (c10 x1 q hq hpos n)
  | ⟨1, _⟩ => exact (RefCat.cols_1 (val_main_v52 (F := Ideal) x1) (val_main_v53 (F := Ideal) x1) (val_main_v54 (F := Ideal) x1) _ n).trans (c11 x1 q hq hpos n)
  | ⟨2, _⟩ => exact (RefCat.cols_2 (val_main_v52 (F := Ideal) x1) (val_main_v53 (F := Ideal) x1) (val_main_v54 (F := Ideal) x1) _ n).trans (c12 x1 q hq hpos n)

include hq hpos in
/-- Row 2 of the rotation matrix. -/
theorem row2_at (n : Fin 5000000) (k : Fin 3) :
    (val_main_v76 (F := Ideal) x1 (ix2 n k) : EReal) = ((Spec.rot (q n) 2 k : ℝ) : EReal) := by
  unfold val_main_v76
  match k with
  | ⟨0, _⟩ => exact (RefCat.cols_0 (val_main_v73 (F := Ideal) x1) (val_main_v74 (F := Ideal) x1) (val_main_v75 (F := Ideal) x1) _ n).trans (c20 x1 q hq hpos n)
  | ⟨1, _⟩ => exact (RefCat.cols_1 (val_main_v73 (F := Ideal) x1) (val_main_v74 (F := Ideal) x1) (val_main_v75 (F := Ideal) x1) _ n).trans (c21 x1 q hq hpos n)
  | ⟨2, _⟩ => exact (RefCat.cols_2 (val_main_v73 (F := Ideal) x1) (val_main_v74 (F := Ideal) x1) (val_main_v75 (F := Ideal) x1) _ n).trans (c22 x1 q hq hpos n)

/-! ### The matrix `[N, 3, 3]` -/

include hq hpos in
/-- Entry `(n, i, k)` of the stacked rows is `rot (q n) i k`. -/
theorem rot_at (n : Fin 5000000) (i k : Fin 3) :
    (val_main_v80 (F := Ideal) x1 (ix3 n i k) : EReal) = ((Spec.rot (q n) i k : ℝ) : EReal) := by
  have e77 : idx_main_v77 (ix3 n (0 : Fin 1) k) = ix2 n k :=
    funext fun a => Fin.ext (by match a with | ⟨0, _⟩ => rfl | ⟨1, _⟩ => rfl)
  have e78 : idx_main_v78 (ix3 n (0 : Fin 1) k) = ix2 n k :=
    funext fun a => Fin.ext (by match a with | ⟨0, _⟩ => rfl | ⟨1, _⟩ => rfl)
  have e79 : idx_main_v79 (ix3 n (0 : Fin 1) k) = ix2 n k :=
    funext fun a => Fin.ext (by match a with | ⟨0, _⟩ => rfl | ⟨1, _⟩ => rfl)
  unfold val_main_v80
  match i with
  | ⟨0, _⟩ =>
    refine (RefCat.slabs_0 (val_main_v77 (F := Ideal) x1) (val_main_v78 (F := Ideal) x1) (val_main_v79 (F := Ideal) x1) _ n k).trans ?_
    rw [val_main_v77_apply, e77]
    exact row0_at x1 q hq hpos n k
  | ⟨1, _⟩ =>
    refine (RefCat.slabs_1 (val_main_v77 (F := Ideal) x1) (val_main_v78 (F := Ideal) x1) (val_main_v79 (F := Ideal) x1) _ n k).trans ?_
    rw [val_main_v78_apply, e78]
    exact row1_at x1 q hq hpos n k
  | ⟨2, _⟩ =>
    refine (RefCat.slabs_2 (val_main_v77 (F := Ideal) x1) (val_main_v78 (F := Ideal) x1) (val_main_v79 (F := Ideal) x1) _ n k).trans ?_
    rw [val_main_v79_apply, e79]
    exact row2_at x1 q hq hpos n k

end Cert.ReferenceIdeal.RefRot

end
-- ==== Proof.RefCov.lean ====
/-
  From the rotation matrix to the result. With `R = rot (q n)` and `s k = exp (a n k)` the reference forms `L i k = R i k · s k`,
  contracts `L` with itself over `k` (the covariance `cov`), averages it with its transpose (it is symmetric already)
  and adds `ε` on the diagonal: entry `(n, i, j)` of the result is `entry (a n) (q n) i j`.
-/
import proofs.«160358_j32280974197216_2_alg».proof.Proof.RefRot

noncomputable section

namespace Cert.ReferenceIdeal.RefCov

open Cert.ReferenceIdeal Cert.ReferenceIdeal.Read Idealize.ShloMosaic Idealize.ShloMosaic.ValueIdx
open Cert.ReferenceIdeal.RefConst

/-- The covariance is symmetric. -/
theorem cov_symm (a : Fin 3 → ℝ) (q : Fin 4 → ℝ) (i j : Fin 3) : Spec.cov a q i j = Spec.cov a q j i := by
  unfold Spec.cov
  exact Finset.sum_congr rfl fun k _ => mul_comm _ _

/-- The `ε · I` term at `(n, i, j)`: `ε` on the diagonal, zero off it. -/
theorem eps_at (n : Fin 5000000) (i j : Fin 3) :
    (val_main_v98 (F := Ideal) (ix3 n i j) : EReal) = if i = j then Spec.epsE else 0 := by
  have e : idx_main_v95 (idx_main_v98 (ix3 n i j)) = ix2 i j :=
    funext fun a => Fin.ext (by match a with | ⟨0, _⟩ => rfl | ⟨1, _⟩ => rfl)
  rw [val_main_v98_apply, val_main_v97_apply, val_main_v96_apply, val_main_cst_13_apply, val_main_v95_apply, e,
    val_main_v94_apply, val_main_v93_apply, val_main_v92_apply, val_main_v89_apply, val_main_v90_apply,
    val_main_v91_apply, val_main_c_apply]
  show FloatOps.mulf (Ideal.ofBits .f32 0x33D6BF95#32)
      (FloatOps.uitofp (F := Ideal) .f32
        (IntOp.cmpi .eq (IntOp.addi (BitVec.ofNat 32 i.val) 0#32) (BitVec.ofNat 32 j.val))) = _
  rw [eye_val i j, Ideal.mulf_def]
  show Spec.epsE * _ = _
  split
  · exact mul_one _
  · exact mul_zero _

variable (x0 : (⟨S5000000x3, .f32⟩ : BufTy).Contents (Elt Ideal)) (x1 : (⟨S5000000x4, .f32⟩ : BufTy).Contents (Elt Ideal))
  (a : Fin 5000000 → Fin 3 → ℝ) (q : Fin 5000000 → Fin 4 → ℝ)
  (ha : ∀ n k, (x0 (ix2 n k) : EReal) = ((a n k : ℝ) : EReal))
  (hq : ∀ n k, (x1 (ix2 n k) : EReal) = ((q n k : ℝ) : EReal)) (hpos : ∀ n, 0 < ∑ k : Fin 4, q n k * q n k)

include ha in
/-- The scale `1 · exp (a n k)`, broadcast over the rows of the matrix. -/
theorem scale_at (n : Fin 5000000) (i k : Fin 3) :
    (val_main_v82 (F := Ideal) x0 (ix3 n i k) : EReal) = ((Real.exp (a n k) : ℝ) : EReal) := by
  have e : idx_main_v81 (idx_main_v82 (ix3 n i k)) = ix2 n k :=
    funext fun b => Fin.ext (by match b with | ⟨0, _⟩ => rfl | ⟨1, _⟩ => rfl)
  rw [val_main_v82_apply, val_main_v81_apply, e, val_main_v2_apply, val_main_v1_apply, val_main_cst_apply,
    val_main_v0_apply, ha, Ideal.mulf_def, Ideal.ofBits_def, Ideal.ofBits_one_f32, one_mul, Ideal.hostUnary_exp_def,
    Ideal.exp_coe]

include ha hq hpos in
/-- `L i k = R i k · s k`. -/
theorem scaled_at (n : Fin 5000000) (i k : Fin 3) :
    (val_main_v83 (F := Ideal) x0 x1 (ix3 n i k) : EReal)
      = ((Spec.rot (q n) i k * Real.exp (a n k) : ℝ) : EReal) := by
  rw [val_main_v83_apply, RefRot.rot_at x1 q hq hpos n i k, scale_at x0 a ha n i k, Ideal.mulf_def, ← EReal.coe_mul]

include ha hq hpos in
/-- The contraction of `L` with itself. -/
theorem cov_at (n : Fin 5000000) (i j : Fin 3) :
    (val_main_v84 (F := Ideal) x0 x1 (ix3 n i j) : EReal) = ((Spec.cov (a n) (q n) i j : ℝ) : EReal) := by
  have el : ∀ k : Fin 3, lidx_main_v84 (ix3 n i j) k = ix3 n i k := fun k =>
    funext fun b => Fin.ext (by match b with | ⟨0, _⟩ => rfl | ⟨1, _⟩ => rfl | ⟨2, _⟩ => rfl)
  have er : ∀ k : Fin 3, ridx_main_v84 (ix3 n i j) k = ix3 n j k := fun k =>
    funext fun b => Fin.ext (by match b with | ⟨0, _⟩ => rfl | ⟨1, _⟩ => rfl | ⟨2, _⟩ => rfl)
  rw [val_main_v84_apply, Fin.sum_univ_three, el 0, el 1, el 2, er 0, er 1, er 2]
  rw [scaled_at x0 x1 a q ha hq hpos n i 0, scaled_at x0 x1 a q ha hq hpos n i 1, scaled_at x0 x1 a q ha hq hpos n i 2]
  rw [scaled_at x0 x1 a q ha hq hpos n j 0, scaled_at x0 x1 a q ha hq hpos n j 1, scaled_at x0 x1 a q ha hq hpos n j 2]
  simp only [← EReal.coe_mul, ← EReal.coe_add]
  unfold Spec.cov
  rw [Fin.sum_univ_three]

include ha hq hpos in
/-- Its transpose. -/
theorem covT_at (n : Fin 5000000) (i j : Fin 3) :
    (val_main_v85 (F := Ideal) x0 x1 (ix3 n i j) : EReal) = ((Spec.cov (a n) (q n) j i : ℝ) : EReal) := by
  have e : idx_main_v85 (ix3 n i j) = ix3 n j i :=
    funext fun b => Fin.ext (by match b with | ⟨0, _⟩ => rfl | ⟨1, _⟩ => rfl | ⟨2, _⟩ => rfl)
  rw [val_main_v85_apply, e, cov_at x0 x1 a q ha hq hpos n j i]

include ha hq hpos in
/-- Half the sum of the covariance and its transpose is the covariance. -/
theorem symm_at (n : Fin 5000000) (i j : Fin 3) :
    (val_main_v88 (F := Ideal) x0 x1 (ix3 n i j) : EReal) = ((Spec.cov (a n) (q n) i j : ℝ) : EReal) := by
  rw [val_main_v88_apply, val_main_v87_apply, val_main_cst_12_apply, val_main_v86_apply,
    cov_at x0 x1 a q ha hq hpos n i j, covT_at x0 x1 a q ha hq hpos n i j, Ideal.mulf_def, Ideal.addf_def,
    Ideal.ofBits_def, ofBits_half, ← EReal.coe_add, ← EReal.coe_mul, cov_symm (a n) (q n) j i]
  congr 1
  ring

include ha hq hpos in
/-- Entry `(n, i, j)` of the reference's result. -/
theorem out_at (n : Fin 5000000) (i j : Fin 3) :
    (val_main_v99 (F := Ideal) x0 x1 (ix3 n i j) : EReal) = Spec.entry (a n) (q n) i j := by
  rw [val_main_v99_apply, symm_at x0 x1 a q ha hq hpos n i j, eps_at n i j, Ideal.addf_def]
  rfl

end Cert.ReferenceIdeal.RefCov

end
-- ==== Proof.RefValue.lean ====
/-
  The reference's result array, read off its run, is the common value `Spec.G` of the argument arrays.
-/
import proofs.«160358_j32280974197216_2_alg».proof.Proof.ReadPatched
import proofs.«160358_j32280974197216_2_alg».proof.Proof.Spec
import proofs.«160358_j32280974197216_2_alg».proof.Proof.RefCov

noncomputable section

namespace Cert.ReferenceIdeal.RefValue

open Idealize.ShloMosaic Idealize.ShloMosaic.ValueIdx

/-- Under the precondition (every entry a real number, no quaternion row zero) the reference's result is `G`: at every
    index `(n, i, j)` both sides are `((R S)(R S)ᵀ) i j`, plus `ε` on the diagonal, for row `n`'s real values. -/
theorem ref_is_G (x0 : (⟨Cert.ReferenceIdeal.S5000000x3, .f32⟩ : BufTy).Contents (Elt Ideal)) (x1 : (⟨Cert.ReferenceIdeal.S5000000x4, .f32⟩ : BufTy).Contents (Elt Ideal))
    (h : Cert.Spec.Good x0 x1) :
    Cert.ReferenceIdeal.Read.val_main_v99 (F := Ideal) x0 x1 = Cert.Spec.G x0 x1 := by
  obtain ⟨a, q, ha, hq, hpos⟩ := h
  funext idx
  obtain ⟨n, i, j, rfl⟩ : ∃ (n : Fin 5000000) (i j : Fin 3), idx = ix3 n i j := ⟨idx 0, idx 1, idx 2, eq_ix3 idx⟩
  exact (Cert.ReferenceIdeal.RefCov.out_at x0 x1 a q ha hq hpos n i j).trans (Cert.Spec.G_of_good ha hq n i j).symm

end Cert.ReferenceIdeal.RefValue

end
-- ==== Proof.PreGood.lean ====
/-
  The printed precondition, read back as mathematics.

  The predicate is  all(|scaling| < +∞) ∧ all(|rotation| < +∞) ∧ all(∑ₖ rotation[n,k]² > 0)  as one rank-0 bit.
  Over the extended reals, "it is true" says: every entry of both arrays is a real number (|x| = max x (-x) is below
  ⊤ exactly when x is neither ⊤ nor ⊥), and in every row of `rotation` the sum of the four squares is positive.
  That is `Cert.Spec.Good`: real arrays `a`, `q` whose coercions are the two arguments, with  0 < ∑ₖ q n k · q n k.
-/
import proofs.«160358_j32280974197216_2_alg».proof.Proof.Gen.Pre_finite_inputs
import proofs.«160358_j32280974197216_2_alg».proof.Proof.Spec
import Idealize.ShloMosaic.Lib.ReduceAll
import Idealize.ShloMosaic.Lib.IdealHost
import Idealize.ShloMosaic.PureOps.Ideal.Laws

noncomputable section

namespace Cert.PreGood

open Idealize.ShloMosaic Idealize.ShloMosaic.ValueIdx Cert.Pre_finite_inputs

/-- The f32 word `0x7F800000` (sign 0, exponent all ones, fraction 0) denotes `+∞`. -/
theorem ofBits_inf : Ideal.ofBits .f32 0x7F800000#32 = (⊤ : EReal) := by simp [Ideal.ofBits, Ideal.ieee]

/-- `|x| < +∞` on the extended reals: `x` is a real number. At `⊤` and at `⊥` the absolute value `max x (-x)` is `⊤`. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | top => simp [Ideal.cmp] at h
  | coe r => exact ⟨r, rfl⟩

/-- The comparison `a > b` returning the bit 1 is the order `b < a`. -/
theorem lt_of_cmp_ogt (a b : EReal) (h : Ideal.cmp .ogt a b = 1#1) : b < a := by
  by_contra hn
  simp [Ideal.cmp, hn] at h

/-- The same for two arrays compared elementwise, read at one index. -/
theorem lt_of_cmpf_ogt {s : Shape} (x y : FVec Ideal s .f32) (i : s.Idx) (h : cmpf .ogt x y i = 1#1) : y i < x i :=
  lt_of_cmp_ogt _ _ h

/-- The coercion of a sum of four reals is the sum of the coercions. -/
theorem coe_sum4 (f : Fin 4 → ℝ) : ((∑ k : Fin 4, f k : ℝ) : EReal) = ∑ k : Fin 4, (f k : EReal) := by
  simp only [Fin.sum_univ_four, EReal.coe_add]

/-- Row `n` with `k` inserted on the reduced axis 1 is the index `(n, k)`. -/
theorem lift_eq (hR : S5000000x4.Reduces [1] S5000000) (n : Fin 5000000) (k : Fin 4) :
    hR.lift (ix1 n) k = ix2 n k := by
  funext c
  apply Fin.ext
  match c with
  | ⟨0, _⟩ => rfl
  | ⟨1, _⟩ => rfl

/-- So the sum along axis 1 at row `n` is the sum over `k : Fin 4` of the entries `(n, k)`. -/
theorem row_sum (x : S5000000x4.Idx → EReal) (hR : S5000000x4.Reduces [1] S5000000) (n : Fin 5000000) :
    (∑ k : Fin (S5000000x4.size 1), x (hR.lift (ix1 n) k)) = ∑ k : Fin 4, x (ix2 n k) :=
  Finset.sum_congr rfl fun k _ => congrArg x (lift_eq hR n k)

/-- The precondition holding gives `Good`: both arrays are coercions of real arrays, and every quaternion row has a
    positive sum of squares. -/
theorem good_of_pre [Cert.Pre_finite_inputs.Facts] (x0 : FVec Ideal Cert.Pre_finite_inputs.S5000000x3 .f32) (x1 : FVec Ideal Cert.Pre_finite_inputs.S5000000x4 .f32)
    (h : Cert.Pre_finite_inputs.fn (F := Ideal) x0 x1 = fun _ => 1#1) : Cert.Spec.Good x0 x1 := by
  -- the rank-0 shape has one index
  haveI : Subsingleton S_.Idx := ⟨fun a b => funext fun d => d.elim0⟩
  -- the result bit is the conjunction of three bits, each an `and` over a whole array
  have h0 := congrFun h ValueIdx.ix0
  dsimp only [Cert.Pre_finite_inputs.fn, andi] at h0
  rw [IntOp.andi_eq_one, IntOp.andi_eq_one] at h0
  obtain ⟨⟨hA, hB⟩, hC⟩ := h0
  -- an `and` over an array that is 1 had a 1 at every index
  have eA := fun i => Host.reduce_andi_all _ _ _ _ _ hA i
  have eB := fun i => Host.reduce_andi_all _ _ _ _ _ hB i
  have eC := fun i => Host.reduce_andi_all _ _ _ _ _ hC i
  -- |x| < +∞ at every index: every entry is a real number
  have rA : ∀ i, ∃ r : ℝ, x0 i = (r : EReal) := fun i => real_of_abs_lt (x0 i) (eA i)
  have rB : ∀ i, ∃ r : ℝ, x1 i = (r : EReal) := fun i => real_of_abs_lt (x1 i) (eB i)
  choose a ha using rA
  choose q hq using rB
  have hR : S5000000x4.Reduces [1] S5000000 :=
    ⟨Facts.reducesTo_S5000000x4_S5000000_d1.1, by decide, Facts.reducesTo_S5000000x4_S5000000_d1.2⟩
  refine ⟨fun n k => a (ix2 n k), fun n k => q (ix2 n k), fun n k => ha _, fun n k => hq _, fun n => ?_⟩
  -- row n: 0 < 0 + ∑ₖ x1 (n, k) · x1 (n, k), the sum over the reduced axis
  have e := lt_of_cmpf_ogt _ _ _ (eC (ix1 n))
  rw [broadcastInDim_scalar_apply, constant_apply, Ideal.ofBits_zero_f32, hostReduceAdd_apply,
    Ideal.hostReduceAdd_single _ hR, constant_apply, Ideal.ofBits_zero_f32, zero_add, row_sum] at e
  -- the entries are coerced reals, so the sum is the coercion of the real sum
  have e2 : (0 : EReal) < ((∑ k : Fin 4, q (ix2 n k) * q (ix2 n k) : ℝ) : EReal) := by
    rw [coe_sum4]
    refine lt_of_lt_of_eq e (Finset.sum_congr rfl fun k _ => ?_)
    rw [mulf_apply, hq, EReal.coe_mul]
  exact EReal.coe_pos.mp e2

end Cert.PreGood

end
-- ==== Proof.lean ====
/-
  The certificate's proof. Both programs take log-scales `scaling : f32[5000000, 3]` and quaternions
  `rotation : f32[5000000, 4]` and return, for each row, the 3 × 3 matrix `(R S)(R S)ᵀ + ε I` with `R` the rotation matrix of
  the normalized quaternion and `S = diag (exp scaling)` (`Spec.G`). The kernel normalizes by `q · rsqrt (∑ q²)`, builds
  the six distinct entries of the symmetric product and mirrors them; the reference divides by `sqrt (∑ q²)`, takes the
  batched product and symmetrizes `½ (C + Cᵀ)`. Over the extended reals the two agree exactly where the reference's own
  quotient is defined: on inputs that are real numbers with no zero quaternion row, which is the precondition
  (at a zero row the reference computes 0/0). There every intermediate is a real number and the two sides are one
  polynomial identity in `q / ‖q‖` and `exp scaling`.

  The pieces: the kernel body's triple (`BodyK`, `BodyKI`), the word-level kernel's frame with the result's window
  forgotten (`FrameK`), the idealized kernel's run with its per-point blocks read as blocks of one array function and
  the host reshape after the region (`FrameKI`, `RunKI`, `ValueKI`), one output row of the body as `Spec.entry` of the same
  input row (`RowValue`), the reference's result as `Spec.G` (`RefValue`), and the precondition decoded (`PreGood`).
-/
import proofs.«160358_j32280974197216_2_alg».proof.Defs
import proofs.«160358_j32280974197216_2_alg».proof.Proof.Gen.Kernel
import proofs.«160358_j32280974197216_2_alg».proof.Proof.Gen.KernelIdeal
import proofs.«160358_j32280974197216_2_alg».proof.Proof.Gen.ReferenceIdeal
import proofs.«160358_j32280974197216_2_alg».proof.Proof.Gen.Pre_finite_inputs
import proofs.«160358_j32280974197216_2_alg».proof.Proof.FrameK
import proofs.«160358_j32280974197216_2_alg».proof.Proof.ValueKI
import proofs.«160358_j32280974197216_2_alg».proof.Proof.RowValue
import proofs.«160358_j32280974197216_2_alg».proof.Proof.RefValue
import proofs.«160358_j32280974197216_2_alg».proof.Proof.PreGood
import Idealize.ShloMosaic.Adequacy
import Idealize.ShloMosaic.Init

noncomputable section

namespace Cert.Proof

open Idealize.ShloMosaic Idealize.ShloMosaic.ValueIdx Idealize.SL.Sem

/-- One output row of the kernel body is `Spec.entry` of the same row of its two input blocks. -/
theorem rowSpec : Cert.KernelIdeal.Hand.RowSpec := fun X0 X1 p a q ha hq hpos i j _ =>
  Cert.KernelIdeal.Hand.bodyVal_row X0 X1 p a q ha hq hpos i j

/-- Under the precondition the two argument arrays hold real numbers, with no zero quaternion row, on every core. -/
theorem reals_of_pre (m : (ℓ : Loc Cert.KernelIdeal.nD Cert.KernelIdeal.τ Cert.KernelIdeal.sig) → Buf (Elt Ideal) ℓ)
    (hpre : Cert.Pre_KernelIdeal m) :
    ∃ (A : Dev Cert.KernelIdeal.nD → Fin 5000000 → Fin 3 → ℝ) (Q : Dev Cert.KernelIdeal.nD → Fin 5000000 → Fin 4 → ℝ),
      (∀ (c : Dev Cert.KernelIdeal.nD) n k,
          m ((c.tc : Thread Cert.KernelIdeal.nD Cert.KernelIdeal.τ).loc Cert.KernelIdeal.main_arg0) (ix2 n k) = ((A c n k : ℝ) : EReal))
      ∧ (∀ (c : Dev Cert.KernelIdeal.nD) n k,
          m ((c.tc : Thread Cert.KernelIdeal.nD Cert.KernelIdeal.τ).loc Cert.KernelIdeal.main_arg1) (ix2 n k) = ((Q c n k : ℝ) : EReal))
      ∧ ∀ c n, 0 < ∑ k : Fin 4, Q c n k * Q c n k := by
  have h := fun c => Cert.PreGood.good_of_pre _ _ (hpre c)
  choose A Q hA hQ hpos using h
  exact ⟨A, Q, hA, hQ, hpos⟩

theorem frame_k : Cert.frame_Kernel := fun m ρ _ => Cert.Kernel.Hand.frame (F := Bits) m ρ

theorem frame_ki : Cert.frame_KernelIdeal := fun m ρ hpre => by
  obtain ⟨A, Q, hA, hQ, hpos⟩ := reals_of_pre m hpre
  exact Cert.KernelIdeal.Hand.frame m ρ (Cert.KernelIdeal.Hand.rowLocal m A Q rowSpec hA hQ hpos)

theorem frame_ri : Cert.frame_ReferenceIdeal := fun m ρ _ =>
  (θ_run Cert.ReferenceIdeal.defs _ _).mono (fun _ h c => (h c).2) (Cert.ReferenceIdeal.Value.run (F := Ideal) m ρ)

/-- At the ideal values both programs end with the result at `Spec.G` of the (agreeing) argument arrays. -/
theorem algebraic : Cert.algebraic_KernelIdeal_ReferenceIdeal := by
  intro m ρ m' ρ' hpre hagree
  obtain ⟨A, Q, hA, hQ, hpos⟩ := reals_of_pre m hpre
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ A Q rowSpec hA hQ hpos, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v99_eq, (hagree c).1, (hagree c).2]
  exact Cert.ReferenceIdeal.RefValue.ref_is_G _ _ (Cert.PreGood.good_of_pre _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
